-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_arg6 : FVec F S128x1 .f32) (main_arg7 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x256 .f32) (main_arg1 : IVec S8192x8192 32) (main_arg2 : FVec F S256x128 .f32) (main_arg3 : FVec F S128 .f32) (main_arg4 : FVec F S128x1 .f32) (main_arg5 : FVec F S1 .f32) (main_arg6 : FVec F S128x1 .f32) (main_arg7 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_arg6 main_arg7 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x1 : Shape := ⟨2, ![128, 1]⟩
abbrev S1 : Shape := ⟨1, ![1]⟩
abbrev S8192x128 : Shape := ⟨2, ![8192, 128]⟩
abbrev S1x128 : Shape := ⟨2, ![1, 128]⟩
abbrev S8192x1 : Shape := ⟨2, ![8192, 1]⟩
abbrev S1x1 : Shape := ⟨2, ![1, 1]⟩
abbrev S1x8192 : Shape := ⟨2, ![1, 8192]⟩
abbrev S1024x2048 : Shape := ⟨2, ![1024, 2048]⟩
abbrev S1024x1 : Shape := ⟨2, ![1024, 1]⟩
abbrev S1x2048 : Shape := ⟨2, ![1, 2048]⟩
abbrev S2048x128 : Shape := ⟨2, ![2048, 128]⟩
abbrev S1024x128 : Shape := ⟨2, ![1024, 128]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S8192x1, .f32⟩
  | .hbm, ⟨13, _⟩ => ⟨S1x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S1x8192, .f32⟩
  | .hbm, ⟨21, _⟩ => ⟨S8192x128, .bf16⟩
  | .hbm, ⟨22, _⟩ => ⟨S8192x128, .f32⟩
  | .local _ .vmem, ⟨0, _⟩ => ⟨S1024x2048, .i32⟩
  | .local _ .vmem, ⟨1, _⟩ => ⟨S1024x2048, .i32⟩
  | .local _ .vmem, ⟨2, _⟩ => ⟨S1024x1, .f32⟩
  | .local _ .vmem, ⟨3, _⟩ => ⟨S1024x1, .f32⟩
  | .local _ .vmem, ⟨4, _⟩ => ⟨S1x2048, .f32⟩
  | .local _ .vmem, ⟨5, _⟩ => ⟨S1x2048, .f32⟩
  | .local _ .vmem, ⟨6, _⟩ => ⟨S2048x128, .bf16⟩
  | .local _ .vmem, ⟨7, _⟩ => ⟨S2048x128, .bf16⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1024x1_S1024x128 : S1024x1.Broadcasts S1024x128
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .i32 = 32 ∨ (Rect.block (s := S8192x8192) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .bf16 = 32 ∨ (Rect.block (s := S8192x128) S2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x1 : Shape := ⟨2, ![128, 1]⟩
abbrev S1 : Shape := ⟨1, ![1]⟩
abbrev S8192x128 : Shape := ⟨2, ![8192, 128]⟩
abbrev S1x128 : Shape := ⟨2, ![1, 128]⟩
abbrev S8192x1 : Shape := ⟨2, ![8192, 1]⟩
abbrev S1x1 : Shape := ⟨2, ![1, 1]⟩
abbrev S1x8192 : Shape := ⟨2, ![1, 8192]⟩
abbrev S_ : Shape := ⟨0, ![]⟩
abbrev S8192 : Shape := ⟨1, ![8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x1, .f32⟩
  | .hbm, ⟨7, _⟩ => ⟨S1, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S8192x1, .f32⟩
  | .hbm, ⟨13, _⟩ => ⟨S1x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibOnlineSoftmax.lean ====
/-
  The algebra of an online softmax, over the extended reals.

  A row of attention scores is processed block by block.  A score is a real number or the bottom
  element (a masked entry).  The running state keeps a running maximum `m`, a running sum `l` of
  `e^(s - m)` and a running weighted sum `acc` of `e^(s - m) · v`; when the maximum grows from `m`
  to `m'` both sums are rescaled by `e^(m - m')`.  With the WEIGHT of a score, `wt s = e^s` for a real
  score and `0` for a masked one, the state after any set of keys is

      l = W · e^(-m),   acc = A · e^(-m),    W = Σ wt s,   A = Σ wt s · v

  (and `l = acc = 0`, `W = A = 0` while every key seen so far is masked, `m = ⊥`), because
  `e^(s - m') = e^s · e^(-m')` and `e^(m - m') · e^(-m) = e^(-m')`.  Hence the quotient `acc / l` is
  `A / W`, whatever the blocking, and so is the two-pass softmax `Σ (e^(s - M) / Σ e^(s - M)) · v`.
-/
import Idealize.ShloMosaic.PureOps.Ideal

noncomputable section

namespace Cert.Lib.OnlineSoftmax

open Idealize.ShloMosaic

/-- The weight of a score: `e^x` of a real score `x`, `0` of a masked one. -/
def wt (x : EReal) : ℝ := (Ideal.exp x).toReal

@[simp] theorem wt_bot : wt ⊥ = 0 := by simp [wt]
@[simp] theorem wt_coe (x : ℝ) : wt (x : EReal) = Real.exp x := by simp [wt]

/-- The coercion of the reals into the extended reals commutes with finite sums. -/
theorem coe_sum {ι : Type*} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- `e^(x - r) = wt x · e^(-r)` for a score `x` and a real `r`. -/
theorem exp_sub_coe {x : EReal} (hx : x ≠ ⊤) (r : ℝ) :
    Ideal.exp (x - (r : EReal)) = ((wt x * Real.exp (-r) : ℝ) : EReal) := by
  induction x using EReal.rec with
  | bot => simp
  | coe x => rw [← EReal.coe_sub, Ideal.exp_coe, wt_coe, sub_eq_add_neg, Real.exp_add]
  | top => exact absurd rfl hx

/-- The running maximum from `⊥` over all keys bounds every score. -/
theorem le_fold_max {κ : Type*} [Fintype κ] (f : κ → EReal) (u : κ) : f u ≤ Finset.univ.fold max ⊥ f :=
  (Finset.le_fold_max _).mpr (Or.inr ⟨u, Finset.mem_univ _, le_rfl⟩)

/-- Over a nonempty set of keys it is one of the scores. -/
theorem fold_max_attained {κ : Type*} [Fintype κ] [Nonempty κ] (f : κ → EReal) :
    ∃ u, f u = Finset.univ.fold max ⊥ f := by
  obtain ⟨u, -, hu⟩ := Finset.exists_max_image Finset.univ f Finset.univ_nonempty
  exact ⟨u, le_antisymm (le_fold_max f u)
    ((Finset.fold_max_le _).mpr ⟨bot_le, fun x _ => hu x (Finset.mem_univ _)⟩)⟩

/-- A score that is neither masked nor `⊤` is a real. -/
theorem exists_coe {x : EReal} (h1 : x ≠ ⊥) (h2 : x ≠ ⊤) : ∃ r : ℝ, x = (r : EReal) := by
  induction x using EReal.rec with
  | bot => exact absurd rfl h1
  | coe x => exact ⟨x, rfl⟩
  | top => exact absurd rfl h2

/-- The running state `(m, l, acc)` of an online softmax after keys whose weights sum to `W` and whose
    weighted values sum to `A`: nothing unmasked seen yet, or `l = W · e^(-m)` and `acc = A · e^(-m)`. -/
def Inv (m l acc : EReal) (W A : ℝ) : Prop :=
  (m = ⊥ ∧ l = 0 ∧ acc = 0 ∧ W = 0 ∧ A = 0) ∨
    ∃ r : ℝ, m = (r : EReal) ∧ l = ((W * Real.exp (-r) : ℝ) : EReal) ∧ acc = ((A * Real.exp (-r) : ℝ) : EReal)

/-- Before any key: maximum `⊥`, both sums zero. -/
theorem Inv.init : Inv ⊥ 0 0 0 0 := Or.inl ⟨rfl, rfl, rfl, rfl, rfl⟩

/-- What the invariant says in one form for both cases: the state's sums are reals, and the weight of the
    running maximum times each is the plain sum. -/
theorem Inv.reals {m l acc : EReal} {W A : ℝ} (h : Inv m l acc W A) :
    m ≠ ⊤ ∧ ∃ lr ar : ℝ, l = (lr : EReal) ∧ acc = (ar : EReal) ∧ wt m * lr = W ∧ wt m * ar = A := by
  rcases h with ⟨rfl, rfl, rfl, rfl, rfl⟩ | ⟨r, rfl, rfl, rfl⟩
  · exact ⟨by simp, 0, 0, by simp, by simp, by simp, by simp⟩
  · refine ⟨EReal.coe_ne_top r, _, _, rfl, rfl, ?_, ?_⟩
    · rw [wt_coe, mul_comm W, ← mul_assoc, ← Real.exp_add, add_neg_cancel, Real.exp_zero, one_mul]
    · rw [wt_coe, mul_comm A, ← mul_assoc, ← Real.exp_add, add_neg_cancel, Real.exp_zero, one_mul]

variable {ι : Type*} [Fintype ι]

/-- ONE BLOCK. From a state satisfying the invariant, a block of scores `s` (reals or masked) with values
    `v`, whose maximum is `mx` (an upper bound that is attained, or `⊥`): the new maximum `max m mx`, the
    old sums rescaled by `e^(m - m')` plus the block's `Σ e^(s - m')` and `Σ e^(s - m') · v`, satisfy the
    invariant for the weights and weighted values with the block's added. -/
theorem Inv.step {m l acc : EReal} {W A : ℝ} (h : Inv m l acc W A)
    (s : ι → EReal) (hs : ∀ c, s c ≠ ⊤) (v : ι → ℝ) (mx : EReal)
    (hub : ∀ c, s c ≤ mx) (hatt : mx = ⊥ ∨ ∃ c, s c = mx) :
    Inv (max m mx)
      (Ideal.exp (m - max m mx) * l + ∑ c, Ideal.exp (s c - max m mx))
      (Ideal.exp (m - max m mx) * acc + ∑ c, Ideal.exp (s c - max m mx) * (v c : EReal))
      (W + ∑ c, wt (s c)) (A + ∑ c, wt (s c) * v c) := by
  obtain ⟨hm, lr, ar, rfl, rfl, hW, hA⟩ := h.reals
  have hmx : mx ≠ ⊤ := by
    rcases hatt with rfl | ⟨c, rfl⟩
    · simp
    · exact hs c
  by_cases hbot : max m mx = ⊥
  · -- nothing unmasked yet, nothing unmasked in the block
    obtain ⟨rfl, rfl⟩ : m = ⊥ ∧ mx = ⊥ := max_eq_bot.mp hbot
    have hsb : ∀ c, s c = ⊥ := fun c => le_bot_iff.mp (hub c)
    left
    simp only [wt_bot, zero_mul] at hW hA
    refine ⟨by simp, ?_, ?_, ?_, ?_⟩
    · simp [hsb]
    · simp [hsb]
    · simp [hsb, ← hW]
    · simp [hsb, ← hA]
  · -- the new maximum is a real
    have htop : max m mx ≠ ⊤ := by
      rcases max_choice m mx with e | e <;> rw [e] <;> assumption
    obtain ⟨r', hr'⟩ := exists_coe hbot htop
    right
    refine ⟨r', hr', ?_, ?_⟩
    · rw [hr', exp_sub_coe hm]
      simp only [exp_sub_coe (hs _)]
      rw [← coe_sum, ← EReal.coe_mul, ← EReal.coe_add]
      congr 1
      rw [← Finset.sum_mul, ← hW]; ring
    · rw [hr', exp_sub_coe hm]
      simp only [exp_sub_coe (hs _), ← EReal.coe_mul]
      rw [← coe_sum, ← EReal.coe_add]
      congr 1
      rw [← hA, add_mul, Finset.sum_mul]
      congr 1
      · ring
      · exact Finset.sum_congr rfl fun c _ => by ring

/-- THE QUOTIENT. Once some key is unmasked (`0 < W`), `acc / l` is `A / W`. -/
theorem Inv.out {m l acc : EReal} {W A : ℝ} (h : Inv m l acc W A) (hW : 0 < W) :
    Ideal.div acc l = ((A / W : ℝ) : EReal) := by
  rcases h with ⟨-, -, -, rfl, -⟩ | ⟨r, -, rfl, rfl⟩
  · exact absurd hW (lt_irrefl _)
  · have he : Real.exp (-r) ≠ 0 := (Real.exp_pos _).ne'
    rw [Ideal.div_coe (mul_ne_zero hW.ne' he), ← EReal.coe_mul]
    congr 1
    field_simp

/-- THE TWO-PASS SOFTMAX. Scores `S` (reals or masked) over all keys, their maximum `M` attained and not
    masked: `Σ (e^(S - M) / Σ e^(S - M)) · v = A / W`. -/
theorem two_pass {κ : Type*} [Fintype κ] (S : κ → EReal) (hS : ∀ u, S u ≠ ⊤) (v : κ → ℝ) (M : EReal)
    (hatt : ∃ u, S u = M) (hM : M ≠ ⊥) :
    ∑ u, Ideal.div (Ideal.exp (S u - M)) (∑ u', Ideal.exp (S u' - M)) * (v u : EReal)
      = (((∑ u, wt (S u) * v u) / (∑ u, wt (S u)) : ℝ) : EReal) := by
  obtain ⟨u₀, hu₀⟩ := hatt
  obtain ⟨r, rfl⟩ := exists_coe hM (hu₀ ▸ hS u₀)
  have he : Real.exp (-r) ≠ 0 := (Real.exp_pos _).ne'
  have hWpos : 0 < ∑ u, wt (S u) := by
    refine Finset.sum_pos' (fun u _ => ?_) ⟨u₀, Finset.mem_univ _, ?_⟩
    · unfold wt; exact EReal.toReal_nonneg (by
        induction S u using EReal.rec with
        | bot => simp
        | coe x => simpa using (Real.exp_pos x).le
        | top => simp)
    · rw [hu₀, wt_coe]; exact Real.exp_pos r
  simp only [exp_sub_coe (hS _)]
  rw [← coe_sum, ← Finset.sum_mul]
  simp only [Ideal.div_coe (mul_ne_zero hWpos.ne' he), ← EReal.coe_mul]
  rw [← coe_sum]
  congr 1
  rw [Finset.sum_div]
  exact Finset.sum_congr rfl fun u _ => by field_simp

end Cert.Lib.OnlineSoftmax

end
-- ==== Proof.Attention.lean ====
/-
  Masked attention over a graph, row by row, on the extended reals.

  A query row `r` scores a key `k` by `a1 r + a2 k` where the adjacency entry `(r, k)` is positive, and by a
  large negative fill elsewhere. With the WEIGHT of a score `wt s = e^s`, the attention output of row `r` at
  feature `d` is the weighted mean of the value rows,

      attn (r, d) = (∑ k, wt (score r k) · h (k, d)) / (∑ k, wt (score r k)),

  a quotient of two real sums: the softmax of the row contracted with the values. Both the two-pass softmax
  (subtract the row maximum, exponentiate, divide by the row sum, then contract) and the online one (keys
  taken tile by tile with a running maximum, the partial sums rescaled when it grows) compute this number.
-/
import Idealize.ShloMosaic.PureOps.Ideal
import Idealize.ShloMosaic.Lib.ValueIdx
import proofs.«157783_j44830868636063_2_alg».proof.Proof.LibOnlineSoftmax

noncomputable section

open scoped BigOperators

namespace Cert.Attention

open Idealize.ShloMosaic Idealize.ShloMosaic.ValueIdx Cert.Lib.OnlineSoftmax

/-- The fill of a masked score: the binary32 word of `-1e16`. -/
def fill : EReal := Ideal.ofBits .f32 0xDA0E1BCA#32

/-- The score of key `k` for query `r`: the sum of the two projections where the adjacency entry is positive,
    the fill elsewhere. -/
def score (adj : (⟨2, ![8192, 8192]⟩ : Shape).Idx → BitVec 32) (a1 : (⟨2, ![8192, 1]⟩ : Shape).Idx → EReal)
    (a2 : (⟨2, ![1, 8192]⟩ : Shape).Idx → EReal) (r k : Fin 8192) : EReal :=
  Scalar.select (IntOp.cmpi .sgt (adj (ix2 r k)) 0#32) (a1 (ix2 r (0 : Fin 1)) + a2 (ix2 (0 : Fin 1) k)) fill

/-- The total weight of row `r`. -/
def rowWeight (adj : (⟨2, ![8192, 8192]⟩ : Shape).Idx → BitVec 32) (a1 : (⟨2, ![8192, 1]⟩ : Shape).Idx → EReal)
    (a2 : (⟨2, ![1, 8192]⟩ : Shape).Idx → EReal) (r : Fin 8192) : ℝ :=
  ∑ k : Fin 8192, wt (score adj a1 a2 r k)

/-- The weighted sum of the value rows for row `r` at feature `d`. -/
def rowValue (adj : (⟨2, ![8192, 8192]⟩ : Shape).Idx → BitVec 32) (a1 : (⟨2, ![8192, 1]⟩ : Shape).Idx → EReal)
    (a2 : (⟨2, ![1, 8192]⟩ : Shape).Idx → EReal) (h : (⟨2, ![8192, 128]⟩ : Shape).Idx → EReal) (r : Fin 8192) (d : Fin 128) : ℝ :=
  ∑ k : Fin 8192, wt (score adj a1 a2 r k) * (h (ix2 k d)).toReal

/-- The attention output: entry `(r, d)` is the weighted mean of the value rows. -/
def attn (adj : (⟨2, ![8192, 8192]⟩ : Shape).Idx → BitVec 32) (a1 : (⟨2, ![8192, 1]⟩ : Shape).Idx → EReal)
    (a2 : (⟨2, ![1, 8192]⟩ : Shape).Idx → EReal) (h : (⟨2, ![8192, 128]⟩ : Shape).Idx → EReal) :
    (⟨2, ![8192, 128]⟩ : Shape).Idx → EReal :=
  fun i => ((rowValue adj a1 a2 h (i 0) (i 1) / rowWeight adj a1 a2 (i 0) : ℝ) : EReal)

end Cert.Attention

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.RealInputs.lean ====
/-
  Finiteness: under the precondition the float inputs are real numbers, and so are the projections computed from them.

  At the ideal values a float is an extended real, and the attention layer's algebra (distributing a product over a sum,
  cancelling a common factor in a quotient of sums) holds for real numbers only: `⊤ + ⊥` and `0 · ⊤` break it. The
  precondition supplies what is needed. It says of each of the seven float inputs `x` that `all(|x| < +∞)`: the mask
  `|x| < +∞` is taken entry by entry, the masks are folded by `and` over every index, and the seven results are joined
  by `and`. Reading this back goes in three steps.

  * One entry. An extended real is `⊥`, a real, or `⊤`. The absolute value is `max x (-x)`, which is `⊤` at both
    `⊥` (since `-⊥ = ⊤`) and `⊤`, and `⊤ < ⊤` is false; the binary32 word `0x7F800000` of the comparison's right side
    denotes `⊤`. So `|x| < +∞` leaves only the real case (`isReal_of_abs_lt_top`, `isReal_of_lane`).
  * One array. A fold by `and` from `1` that came out `1` met only `1`s, so every entry's mask is `1`
    (`real_of_all`, for any shape).
  * The seven arrays. An `and` of two bits is `1` exactly when both are: the conjunction splits into its seven parts
    (`real_of_pre`).

  From real inputs the host projections stay real (`real_v3`, `real_v7`, `real_v12`): `h = features·W + b`,
  `a1 = h·a1_w + a1_b` and `a2 = h·a2_w + a2_b` are finite sums of products of reals plus a real, and the reals are
  closed under `+` and `·`.
-/
import proofs.«157783_j44830868636063_2_alg».proof.Proof.Gen.ReferenceIdeal.Read
import proofs.«157783_j44830868636063_2_alg».proof.Proof.Gen.Pre_finite_inputs
import proofs.«157783_j44830868636063_2_alg».proof.Pre_finite_inputs
import proofs.«157783_j44830868636063_2_alg».proof.Proof.LibRealSum
import Idealize.ShloMosaic.Lib.ReduceAll

noncomputable section

namespace Cert.ReferenceIdeal.RealInputs

open Cert.ReferenceIdeal Cert.ReferenceIdeal.Read Idealize.ShloMosaic Idealize.ShloMosaic.ValueIdx Cert.Lib.RealSum

/-- The binary32 word `0x7F800000` (sign 0, exponent all ones, fraction 0) denotes `+∞`. -/
theorem ofBits_inf : Ideal.ofBits .f32 0x7F800000#32 = ⊤ := by simp [Ideal.ofBits, Ideal.ieee]

/-- An extended real whose absolute value `max x (-x)` is strictly below `+∞` is a real number: of the three kinds of
    extended real, `⊥` has `-⊥ = ⊤` and `⊤` is `⊤` itself, so both have absolute value `⊤`, which is not below `⊤`. -/
theorem isReal_of_abs_lt_top (x : EReal) (h : max x (-x) < ⊤) : IsReal x := by
  induction x using EReal.rec with
  | bot => simp at h
  | coe r => exact IsReal.coe r
  | top => simp at h

/-- A one-bit word made from a Boolean is `1` exactly when the Boolean is true. -/
theorem ofBool_eq_one (b : Bool) : BitVec.ofBool b = 1#1 ↔ b = true := by cases b <;> decide

/-- One lane of the mask `|x| < +∞`: where the comparison's bit is `1`, `x` is a real number. -/
theorem isReal_of_lane (x : EReal)
    (h : FloatOps.cmpf (F := Ideal) (φ := .f32) .olt (FloatOps.hostAbsf (F := Ideal) (φ := .f32) x)
          (FloatOps.ofBits (F := Ideal) .f32 0x7F800000#32) = 1#1) : IsReal x := by
  -- at the ideal values the comparison is the order's `<`, the absolute value is `max x (-x)`, the constant is `⊤`
  have h' : BitVec.ofBool (decide (max x (-x) < Ideal.ofBits .f32 0x7F800000#32)) = 1#1 := h
  rw [ofBits_inf, ofBool_eq_one, decide_eq_true_eq] at h'
  exact isReal_of_abs_lt_top x h'

/-- A rank-0 array has one index. -/
instance subsingleton_idx0 : Subsingleton Cert.Pre_finite_inputs.S_.Idx := ⟨fun a b => funext fun d => d.elim0⟩

/-- `all(|x| < +∞)` read back, for an array of any shape: the mask `|x| < +∞` is folded by `and` over every index,
    starting from `init`; if the fold is `1`, every lane of the mask is `1`, so every entry of `x` is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (h : Host.reduce IntOp.andi
          (cmpf .olt (Host.absf x) (broadcastInDim s ![] hb (constant Cert.Pre_finite_inputs.S_ .f32 0x7F800000#32)))
          init hr hu ix0 = 1#1) (i : s.Idx) : IsReal (x i) :=
  isReal_of_lane (x i) (Host.reduce_andi_all _ init hr hu ix0 h i)

/-- Under the precondition every float input is a real number. -/
theorem real_of_pre [Cert.Pre_finite_inputs.Facts]
    (x0 : FVec Ideal Cert.Pre_finite_inputs.S8192x256 .f32) (x1 : IVec Cert.Pre_finite_inputs.S8192x8192 32)
    (x2 : FVec Ideal Cert.Pre_finite_inputs.S256x128 .f32) (x3 : FVec Ideal Cert.Pre_finite_inputs.S128 .f32)
    (x4 : FVec Ideal Cert.Pre_finite_inputs.S128x1 .f32) (x5 : FVec Ideal Cert.Pre_finite_inputs.S1 .f32)
    (x6 : FVec Ideal Cert.Pre_finite_inputs.S128x1 .f32) (x7 : FVec Ideal Cert.Pre_finite_inputs.S1 .f32)
    (hpre : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  -- the precondition's result is a rank-0 array: read it at its one index
  have e := congrFun hpre ix0
  -- unfold the printed chain: the result is `((((((m0 ∧ m2) ∧ m3) ∧ m4) ∧ m5) ∧ m6) ∧ m7)`, each `m` one array's `all`
  dsimp only [Cert.Pre_finite_inputs.fn, Cert.Pre_finite_inputs.fn_part1, andi] at e
  -- an `and` of bits is `1` exactly when both bits are
  simp only [IntOp.andi_eq_one] at e
  obtain ⟨⟨⟨⟨⟨⟨h0, h2⟩, h3⟩, h4⟩, h5⟩, h6⟩, h7⟩ := e
  exact ⟨real_of_all _ _ _ x0 _ h0, real_of_all _ _ _ x2 _ h2, real_of_all _ _ _ x3 _ h3, real_of_all _ _ _ x4 _ h4,
    real_of_all _ _ _ x5 _ h5, real_of_all _ _ _ x6 _ h6, real_of_all _ _ _ x7 _ h7⟩

/-! ## The host projections of real inputs are real

On the extended reals a sum or a product can leave the reals only through an infinite operand (`⊤ + ⊥`, `0 · ⊤`, …).
Every stage below is built from real operands by finitely many sums and products, so it stays real: the real numbers
are closed under `+` and `·`, and the coercion `ℝ → EReal` commutes with both. -/

/-- One entry of a matrix product is real when both factors have real entries: it is a finite sum `∑ k, a k · b k`
    of products of two reals; each product is the real `a k · b k`, and a finite sum of reals is a real
    (induction on the index set, one `+` at a time). -/
theorem isReal_dot {n : Nat} (a b : Fin n → EReal) (ha : ∀ k, IsReal (a k)) (hb : ∀ k, IsReal (b k)) :
    IsReal (∑ k : Fin n, a k * b k) :=
  IsReal.sum _ _ fun k _ => (ha k).mul (hb k)

/-- `h = features·W + b` has real entries when the three inputs do: entry `(r, d)` is
    `(∑ k, features (r, k) · W (k, d)) + b d`, the bias `b` being broadcast along the rows; the contraction is a
    finite sum of products of reals (`isReal_dot`), and adding the real `b d` keeps it real. -/
theorem real_v3 (x0 : (⟨S8192x256, .f32⟩ : BufTy).Contents (Elt Ideal)) (x2 : (⟨S256x128, .f32⟩ : BufTy).Contents (Elt Ideal))
    (x3 : (⟨S128, .f32⟩ : BufTy).Contents (Elt Ideal))
    (h0 : ∀ i, IsReal (x0 i)) (h2 : ∀ i, IsReal (x2 i)) (h3 : ∀ i, IsReal (x3 i)) :
    ∀ i, IsReal (val_main_v3 (F := Ideal) x0 x2 x3 i) := by
  intro i
  -- the sum is the matrix product at `i`, the second summand the bias read through its two broadcasts
  rw [val_main_v3_apply, val_main_v0_apply, val_main_v2_apply, val_main_v1_apply, Ideal.addf_def]
  exact (isReal_dot _ _ (fun _ => h0 _) (fun _ => h2 _)).add (h3 _)

/-- `a1 = h·a1_w + a1_b` has real entries: entry `r` is `(∑ d, h (r, d) · a1_w d) + a1_b`, a finite sum of
    products of the real entries of `h` (`real_v3`) with real weights, plus a real bias. -/
theorem real_v7 (x0 : (⟨S8192x256, .f32⟩ : BufTy).Contents (Elt Ideal)) (x2 : (⟨S256x128, .f32⟩ : BufTy).Contents (Elt Ideal))
    (x3 : (⟨S128, .f32⟩ : BufTy).Contents (Elt Ideal)) (x4 : (⟨S128x1, .f32⟩ : BufTy).Contents (Elt Ideal)) (x5 : (⟨S1, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) :
    ∀ i, IsReal (val_main_v7 (F := Ideal) x0 x2 x3 x4 x5 i) := by
  intro i
  -- name `h` and keep only that its entries are real
  have hy := real_v3 x0 x2 x3 h0 h2 h3
  rw [val_main_v7_apply, val_main_v4_apply, val_main_v6_apply, val_main_v5_apply, Ideal.addf_def]
  generalize val_main_v3 (F := Ideal) x0 x2 x3 = y at hy ⊢
  exact (isReal_dot _ _ (fun _ => hy _) (fun _ => h4 _)).add (h5 _)

/-- `a2ᵀ = (h·a2_w + a2_b)ᵀ` has real entries: the transpose reads entry `(0, k)` at `(k, 0)`, and that entry is
    `(∑ d, h (k, d) · a2_w d) + a2_b`, real for the same reason as `a1`. -/
theorem real_v12 (x0 : (⟨S8192x256, .f32⟩ : BufTy).Contents (Elt Ideal)) (x2 : (⟨S256x128, .f32⟩ : BufTy).Contents (Elt Ideal))
    (x3 : (⟨S128, .f32⟩ : BufTy).Contents (Elt Ideal)) (x6 : (⟨S128x1, .f32⟩ : BufTy).Contents (Elt Ideal)) (x7 : (⟨S1, .f32⟩ : BufTy).Contents (Elt Ideal))
    (h0 : ∀ i, IsReal (x0 i)) (h2 : ∀ i, IsReal (x2 i)) (h3 : ∀ i, IsReal (x3 i)) (h6 : ∀ i, IsReal (x6 i)) (h7 : ∀ i, IsReal (x7 i)) :
    ∀ i, IsReal (val_main_v12 (F := Ideal) x0 x2 x3 x6 x7 i) := by
  intro i
  have hy := real_v3 x0 x2 x3 h0 h2 h3
  rw [val_main_v12_apply, val_main_v11_apply, val_main_v8_apply, val_main_v10_apply, val_main_v9_apply, Ideal.addf_def]
  generalize val_main_v3 (F := Ideal) x0 x2 x3 = y at hy ⊢
  exact (isReal_dot _ _ (fun _ => hy _) (fun _ => h6 _)).add (h7 _)

end Cert.ReferenceIdeal.RealInputs

end
-- ==== Proof.HostPrefix.lean ====
/-
  What the host operations before the kernel call leave in the arrays the kernel's windows read.

  Both programs, the one that calls the kernel and the reference, begin with the same thirteen host operations:

      h   = features·W + b              (a matrix product, the bias broadcast along the rows)
      a1  = h·a1_w + a1_b               (the query projection, one column)
      a2  = h·a2_w + a2_b,  a2ᵀ         (the key projection, transposed to one row)

  and the kernel's program then rounds `h` to bf16 for the value window. So the arrays the kernel finds are the very
  terms the reference's read-module names `val_main_v7` (a1), `val_main_v12` (a2ᵀ) and `val_main_v3` (h): each side is
  the composition of the same operations on the same launch contents. The two printed programs spell the shapes and the
  contraction records by constants of their own, which unfold to the same literals; and at the ideal values rounding to
  bf16 is the identity on extended reals. Each equation therefore holds by unfolding: fold the host operations over the
  launch memory one result buffer at a time, then compare the two compositions.
-/
import proofs.«157783_j44830868636063_2_alg».proof.Proof.Gen.KernelIdeal.Frame
import proofs.«157783_j44830868636063_2_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem

variable (m : (ℓ : Loc nD τ sig) → Buf (Elt Ideal) ℓ) (c : Dev nD)

/-- The query window's array is the reference's `a1 = h·a1_w + a1_b`: the host operations that write it are
    `h = features·W + b`, the contraction of `h` with `a1_w`, and the addition of the broadcast bias `a1_b`, in both
    programs. -/
theorem query_eq : V m c main_v7 = Cert.ReferenceIdeal.Read.val_main_v7 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  -- the reference's stage, one operation over the previous stage at a time
  unfold Cert.ReferenceIdeal.Read.val_main_v7 Cert.ReferenceIdeal.Read.val_main_v6 Cert.ReferenceIdeal.Read.val_main_v5 Cert.ReferenceIdeal.Read.val_main_v4
    Cert.ReferenceIdeal.Read.val_main_v3 Cert.ReferenceIdeal.Read.val_main_v0 Cert.ReferenceIdeal.Read.val_main_v2 Cert.ReferenceIdeal.Read.val_main_v1
  -- the kernel program's array: each host operation's result buffer at its function of the operand buffers
  dsimp only [Gen.V, Gen.hostOps0]
  after_results
  -- the same composition, over constants that unfold to the same literals
  rfl

/-- The key window's array is the reference's `a2ᵀ = (h·a2_w + a2_b)ᵀ`. -/
theorem key_eq : V m c main_v12 = Cert.ReferenceIdeal.Read.val_main_v12 (F := Ideal) (m ((c : Thread nD τ).loc main_arg0)) (m ((c : Thread nD τ).loc main_arg2)) (m ((c : Thread nD τ).loc main_arg3)) (m ((c : Thread nD τ).loc main_arg6)) (m ((c : Thread nD τ).loc main_arg7)) := by
  unfold Cert.ReferenceIdeal.Read.val_main_v12 Cert.ReferenceIdeal.Read.val_main_v11 Cert.ReferenceIdeal.Read.val_main_v10 Cert.ReferenceIdeal.Read.val_main_v9 Cert.ReferenceIdeal.Read.val_main_v8
    Cert.ReferenceIdeal.Read.val_main_v3 Cert.ReferenceIdeal.Read.val_main_v0 Cert.ReferenceIdeal.Read.val_main_v2 Cert.ReferenceIdeal.Read.val_main_v1
  dsimp only [Gen.V, Gen.hostOps0]
  after_results
  rfl

/-- The value window's array is the reference's `h = features·W + b`: the kernel's program rounds `h` to bf16 before the
    call, and on extended reals that rounding is the identity. -/
theorem value_eq : V m c main_v13 = Cert.ReferenceIdeal.Read.val_main_v3 (F := Ideal) (m ((c : Thread nD τ).loc main_arg0)) (m ((c : Thread nD τ).loc main_arg2)) (m ((c : Thread nD τ).loc main_arg3)) := by
  unfold Cert.ReferenceIdeal.Read.val_main_v3 Cert.ReferenceIdeal.Read.val_main_v0 Cert.ReferenceIdeal.Read.val_main_v2 Cert.ReferenceIdeal.Read.val_main_v1
  dsimp only [Gen.V, Gen.hostOps0]
  after_results
  -- `truncf .bf16 x` is `x` entry by entry at the ideal values
  rfl

end Cert.KernelIdeal.HostPrefix

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«157783_j44830868636063_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.RefAttention.lean ====
/-
  The reference program computes the attention specification.

  The reference is the textbook two-pass row softmax. With `h = features · W + b` (an `[8192, 128]` array), the
  two projections `a1 = h · a1_w + a1_b` (a column) and `a2 = (h · a2_w + a2_b)ᵀ` (a row), it forms

      s (r, k) = a1 r + a2 k   where adj (r, k) > 0,     s (r, k) = fill   elsewhere        (the masked scores)
      M r      = max (-∞) (max over k of s (r, k), starting from -∞)                        (the row maximum)
      e (r, k) = exp (s (r, k) - M r)
      Z r      = 0 + ∑ k, e (r, k)                                                          (the row sum)
      p (r, k) = e (r, k) / Z r                                                             (the softmax)
      out (r, d) = ∑ k, p (r, k) · h (k, d).

  Each stage is a whole-array operation; the maximum and the sum are spread back along the rows by two layout
  operations each (a vector `[8192]` to a column `[8192, 1]`, the column to `[8192, 8192]`). This module reads the
  stages one after the other at an index, each from the stage before: the score (`score_read`), the row maximum
  (`rowMax_read`), the exponentials (`exp_read`), the row sum (`rowSum_read`), the softmax weight (`weight_read`).
  That leaves, for the entry `(r, d)` of the result,

      ∑ k, (exp (S k - M) / ∑ k', exp (S k' - M)) · h (k, d),      S k = score r k,   M = the maximum of S from ⊥,

  over the extended reals. Where `h`, `a1` and `a2` are real, every score is a real (the fill is a finite
  binary32 number), so `M` is one of the scores — the row has 8192 > 0 keys — and a real; then
  `exp (S k - M) = e^(S k) · e^(-M)`, the factor `e^(-M)` cancels in the quotient, and the entry is

      (∑ k, e^(S k) · h (k, d)) / (∑ k, e^(S k)),

  which is the specification `Cert.Attention.attn` (`row_is_attn`, `ref_is_attn`).
-/
import proofs.«157783_j44830868636063_2_alg».proof.Proof.Gen.ReferenceIdeal.Read
import proofs.«157783_j44830868636063_2_alg».proof.Proof.Attention
import proofs.«157783_j44830868636063_2_alg».proof.Proof.LibRowLayer
import proofs.«157783_j44830868636063_2_alg».proof.Proof.LibRealSum

noncomputable section

open scoped BigOperators

namespace Cert.ReferenceIdeal.RefValue

open Cert.ReferenceIdeal Cert.ReferenceIdeal.Read Idealize.ShloMosaic Idealize.ShloMosaic.ValueIdx Cert.Lib.RealSum

/-! ## The two constants of the softmax -/

/-- The fill of a masked score is a real number. Its word `0xDA0E1BCA` has sign bit 1 and exponent field 180, which
    is neither 0 (a subnormal) nor 255 (an infinity or a NaN): a normal binary32 number,
    `-(2^23 + T) · 2^(180 - 127 - 23)` with `T` the 23 trailing bits. Only that it is SOME real is used. -/
theorem fill_isReal : IsReal Cert.Attention.fill := by
  unfold Cert.Attention.fill Ideal.ofBits Ideal.ieee
  simp only []
  -- the exponent field is not all ones, and is not zero: the third branch, a coerced real
  rw [if_neg (by decide), if_neg (by decide)]
  exact ⟨_, rfl⟩

/-- The word `0xFF800000` — sign 1, exponent all ones, fraction 0 — is `-∞`, the bottom of the extended reals. -/
theorem ofBits_neg_inf : Ideal.ofBits .f32 0xFF800000#32 = ⊥ := by
  simp [Ideal.ofBits, Ideal.ieee]

/-! ## Where the layout operations read

Each is an equation between two functions of the axis, proved axis by axis. -/

/-- Spreading the column `a1` along the rows: position `(r, k)` reads the column's row `r`. -/
theorem idx13 (r k : Fin 8192) : idx_main_v13 (ix2 r k) = ix2 r (0 : Fin 1) :=
  funext fun a => by
    match a with
    | ⟨0, _⟩ => rfl
    | ⟨1, _⟩ => rfl

/-- Spreading the row `a2` down the columns: position `(r, k)` reads the row's column `k`. -/
theorem idx14 (r k : Fin 8192) : idx_main_v14 (ix2 r k) = ix2 (0 : Fin 1) k :=
  funext fun a => by
    match a with
    | ⟨0, _⟩ => rfl
    | ⟨1, _⟩ => rfl

/-- The vector of row maxima viewed as a column: row `r` of the column reads entry `r`. -/
theorem idx22 (r : Fin 8192) (u : Fin 1) : idx_main_v22 (ix2 r u) = ix1 r :=
  funext fun a => by
    match a with
    | ⟨0, _⟩ => rfl

/-- The column of row maxima spread along the rows: position `(r, k)` reads the column's row `r`. -/
theorem idx23 (r k : Fin 8192) : idx_main_v23 (ix2 r k) = ix2 r (0 : Fin 1) :=
  funext fun a => by
    match a with
    | ⟨0, _⟩ => rfl
    | ⟨1, _⟩ => rfl

/-- The row sum at row `r` adds up the positions `(r, k)`. -/
theorem idx26 (r k : Fin 8192) : idx_main_v26 (ix1 r) k = ix2 r k :=
  funext fun a => by
    match a with
    | ⟨0, _⟩ => rfl
    | ⟨1, _⟩ => rfl

/-- The vector of row sums viewed as a column: row `r` of the column reads entry `r`. -/
theorem idx27 (r : Fin 8192) (u : Fin 1) : idx_main_v27 (ix2 r u) = ix1 r :=
  funext fun a => by
    match a with
    | ⟨0, _⟩ => rfl

/-- The column of row sums spread along the rows: position `(r, k)` reads the column's row `r`. -/
theorem idx28 (r k : Fin 8192) : idx_main_v28 (ix2 r k) = ix2 r (0 : Fin 1) :=
  funext fun a => by
    match a with
    | ⟨0, _⟩ => rfl
    | ⟨1, _⟩ => rfl

/-- The final contraction at `(r, d)` reads the softmax at `(r, k)` … -/
theorem lidx30 (r : Fin 8192) (d : Fin 128) (k : Fin 8192) : lidx_main_v30 (ix2 r d) k = ix2 r k :=
  funext fun a => by
    match a with
    | ⟨0, _⟩ => rfl
    | ⟨1, _⟩ => rfl

/-- … and the values at `(k, d)`. -/
theorem ridx30 (r : Fin 8192) (d : Fin 128) (k : Fin 8192) : ridx_main_v30 (ix2 r d) k = ix2 k d :=
  funext fun a => by
    match a with
    | ⟨0, _⟩ => rfl
    | ⟨1, _⟩ => rfl

/-! ## The reference, stage by stage -/

section Stages

variable (x0 : (⟨S8192x256, .f32⟩ : BufTy).Contents (Elt Ideal)) (x1 : (⟨S8192x8192, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (x6 : (⟨S128x1, .f32⟩ : BufTy).Contents (Elt Ideal)) (x7 : (⟨S1, .f32⟩ : BufTy).Contents (Elt Ideal))

/-- `sc r k`: the specification's score of key `k` for query `r`, at the reference's adjacency `x1` and its two
    projections (the column `a1` and the row `a2`). -/
local notation "sc" =>
  Cert.Attention.score x1 (val_main_v7 (F := Ideal) x0 x2 x3 x4 x5) (val_main_v12 (F := Ideal) x0 x2 x3 x6 x7)

/-- THE MASKED SCORES. At `(r, k)` the reference's select of `a1 r + a2 k` (the two spread projections added) against
    the spread fill, on the condition `adj (r, k) > 0`, is the specification's score. -/
theorem score_read (r k : Fin 8192) :
    val_main_v18 (F := Ideal) x0 x1 x2 x3 x4 x5 x6 x7 (ix2 r k) = sc r k := by
  rw [val_main_v18_apply, val_main_v17_apply, val_main_v16_apply, val_main_c_apply, val_main_v15_apply,
    val_main_v13_apply, val_main_v14_apply, val_main_call0_v0_apply, val_main_cst_apply, idx13, idx14]
  rfl

/-- THE ROW MAXIMUM. Row `r` of `max (-∞) (the reduction by max, from -∞, along the rows)` is the fold of `max` from `⊥`
    over the scores of row `r`; the outer `max` against `-∞ = ⊥` changes nothing. -/
theorem rowMax_read (r : Fin 8192) :
    val_main_v21 (F := Ideal) x0 x1 x2 x3 x4 x5 x6 x7 (ix1 r)
      = (Finset.univ : Finset (Fin 8192)).fold max ⊥ (fun k => sc r k) := by
  rw [val_main_v21_apply, val_main_v20_apply, val_main_cst_1_apply, Ideal.maximumf_def, Ideal.ofBits_def,
    ofBits_neg_inf, max_eq_right bot_le]
  unfold val_main_v19
  -- a reduction by `max` along the rows is, at row `r`, the fold over the row from the initial value
  refine (Cert.RowLayer.hostRowMax_apply _ _ _ (by decide) _ r).trans ?_
  rw [val_main_cst_0_apply, Ideal.ofBits_def, ofBits_neg_inf]
  exact congrArg ((Finset.univ : Finset (Fin 8192)).fold max (⊥ : EReal))
    (funext fun k => score_read x0 x1 x2 x3 x4 x5 x6 x7 r k)

/-- THE EXPONENTIALS. At `(r, k)`: `exp (score r k - M r)`, the row maximum having been spread back along row `r`. -/
theorem exp_read (r k : Fin 8192) :
    val_main_v25 (F := Ideal) x0 x1 x2 x3 x4 x5 x6 x7 (ix2 r k)
      = Ideal.exp (sc r k - (Finset.univ : Finset (Fin 8192)).fold max ⊥ (fun k' => sc r k')) := by
  rw [val_main_v25_apply, val_main_v24_apply, val_main_v23_apply, val_main_v22_apply, idx23, idx22, rowMax_read,
    score_read, Ideal.hostUnary_exp_def, Ideal.subf_def]

/-- THE ROW SUM. Row `r` of the reduction by `+` from the zero word: `0 + ∑ k, exp (score r k - M r)`, the zero dropped. -/
theorem rowSum_read (r : Fin 8192) :
    val_main_v26 (F := Ideal) x0 x1 x2 x3 x4 x5 x6 x7 (ix1 r)
      = ∑ k : Fin 8192, Ideal.exp (sc r k - (Finset.univ : Finset (Fin 8192)).fold max ⊥ (fun k' => sc r k')) := by
  rw [val_main_v26_apply, val_main_cst_2_apply, Ideal.ofBits_def, Ideal.ofBits_zero_f32, zero_add]
  exact Finset.sum_congr rfl fun k _ => by rw [idx26, exp_read]

/-- THE SOFTMAX. At `(r, k)`: the exponential over the row sum, the sum having been spread back along row `r`. -/
theorem weight_read (r k : Fin 8192) :
    val_main_v29 (F := Ideal) x0 x1 x2 x3 x4 x5 x6 x7 (ix2 r k)
      = Ideal.div (Ideal.exp (sc r k - (Finset.univ : Finset (Fin 8192)).fold max ⊥ (fun k' => sc r k')))
          (∑ k' : Fin 8192, Ideal.exp (sc r k' - (Finset.univ : Finset (Fin 8192)).fold max ⊥ (fun k' => sc r k'))) := by
  rw [val_main_v29_apply, val_main_v28_apply, val_main_v27_apply, idx28, idx27, rowSum_read, exp_read,
    Ideal.hostDivf_def]

/-- Every score is a real where the two projections are: it is the real `a1 r + a2 k` or the real fill, whichever
    the adjacency picks. -/
theorem score_isReal (h7 : ∀ i, IsReal (val_main_v7 (F := Ideal) x0 x2 x3 x4 x5 i))
    (h12 : ∀ i, IsReal (val_main_v12 (F := Ideal) x0 x2 x3 x6 x7 i)) (r k : Fin 8192) : IsReal (sc r k) :=
  IsReal.select _ ((h7 _).add (h12 _)) fill_isReal

/-- ONE ENTRY. Entry `(r, d)` of the reference's result, `∑ k, softmax (r, k) · h (k, d)`, is the weighted mean
    `(∑ k, e^(score r k) · h (k, d)) / (∑ k, e^(score r k))` of the specification. -/
theorem row_is_attn (h3 : ∀ i, IsReal (val_main_v3 (F := Ideal) x0 x2 x3 i))
    (h7 : ∀ i, IsReal (val_main_v7 (F := Ideal) x0 x2 x3 x4 x5 i))
    (h12 : ∀ i, IsReal (val_main_v12 (F := Ideal) x0 x2 x3 x6 x7 i)) (r : Fin 8192) (d : Fin 128) :
    val_main_v30 (F := Ideal) x0 x1 x2 x3 x4 x5 x6 x7 (ix2 r d)
      = ((Cert.Attention.rowValue x1 (val_main_v7 (F := Ideal) x0 x2 x3 x4 x5) (val_main_v12 (F := Ideal) x0 x2 x3 x6 x7)
            (val_main_v3 (F := Ideal) x0 x2 x3) r d
          / Cert.Attention.rowWeight x1 (val_main_v7 (F := Ideal) x0 x2 x3 x4 x5)
              (val_main_v12 (F := Ideal) x0 x2 x3 x6 x7) r : ℝ) : EReal) := by
  -- the scores of row `r` are reals, so none is `⊤`
  have hS : ∀ k, IsReal (sc r k) := score_isReal x0 x1 x2 x3 x4 x5 x6 x7 h7 h12 r
  have htop : ∀ k, sc r k ≠ ⊤ := fun k => by
    obtain ⟨t, ht⟩ := hS k
    rw [ht]
    exact EReal.coe_ne_top t
  -- their maximum is one of them (there are 8192 > 0 keys), so it is a real too, not `⊥`
  haveI : Nonempty (Fin 8192) := ⟨⟨0, by decide⟩⟩
  obtain ⟨u, hu⟩ := Cert.Lib.OnlineSoftmax.fold_max_attained (fun k : Fin 8192 => sc r k)
  have hM : (Finset.univ : Finset (Fin 8192)).fold max ⊥ (fun k => sc r k) ≠ ⊥ := by
    rw [← hu]
    obtain ⟨t, ht⟩ := hS u
    rw [ht]
    exact EReal.coe_ne_bot t
  -- the contraction, its terms read; then the two-pass softmax is the quotient of the two weighted sums
  rw [val_main_v30_apply]
  refine (Finset.sum_congr rfl fun k _ => ?_).trans
    (Cert.Lib.OnlineSoftmax.two_pass _ htop (fun k => (val_main_v3 (F := Ideal) x0 x2 x3 (ix2 k d)).toReal) _ ⟨u, hu⟩ hM)
  rw [lidx30, ridx30, weight_read]
  -- the value `h (k, d)` is a real: it is the coercion of its real part
  obtain ⟨t, ht⟩ := h3 (ix2 k d)
  rw [ht, EReal.toReal_coe]

end Stages

/-! ## The reference is the specification -/

/-- The reference's result is the attention specification at the reference's own adjacency, projections and values,
    wherever those projections and values are real. Entry by entry: an index is `(r, d)`, and there both sides are
    the weighted mean of `row_is_attn`. -/
theorem ref_is_attn
    (x0 : (⟨S8192x256, .f32⟩ : BufTy).Contents (Elt Ideal)) (x1 : (⟨S8192x8192, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (x6 : (⟨S128x1, .f32⟩ : BufTy).Contents (Elt Ideal)) (x7 : (⟨S1, .f32⟩ : BufTy).Contents (Elt Ideal))
    (h3 : ∀ i, IsReal (val_main_v3 (F := Ideal) x0 x2 x3 i))
    (h7 : ∀ i, IsReal (val_main_v7 (F := Ideal) x0 x2 x3 x4 x5 i))
    (h12 : ∀ i, IsReal (val_main_v12 (F := Ideal) x0 x2 x3 x6 x7 i)) :
    val_main_v30 (F := Ideal) x0 x1 x2 x3 x4 x5 x6 x7
      = Cert.Attention.attn x1 (val_main_v7 (F := Ideal) x0 x2 x3 x4 x5) (val_main_v12 (F := Ideal) x0 x2 x3 x6 x7)
          (val_main_v3 (F := Ideal) x0 x2 x3) := by
  funext i
  obtain ⟨r, d, rfl⟩ : ∃ (r : Fin 8192) (d : Fin 128), i = ix2 r d := ⟨i 0, i 1, eq_ix2 i⟩
  exact row_is_attn x0 x1 x2 x3 x4 x5 x6 x7 h3 h7 h12 r d

end Cert.ReferenceIdeal.RefValue

end
-- ==== Proof.Pieces.lean ====
/-
  What one run of the kernel body leaves behind, as values.

  The body has three control cases: the first key tile of a row block (the running state is reset, then updated),
  a middle tile (the state of the tile before is updated), and the last tile (updated, then the quotient is
  stored to the output block). In every case each scratch buffer ends holding ONE whole-buffer store, whose value
  is a pure function of the tile's input blocks and of the state the tile starts from:

      the running maximum   newMax  = the old maximum against the tile's row maxima
      the running sum       newSum  = the old sum rescaled plus the tile's row sums of weights
      the weighted sum      newAcc  = the old one rescaled plus the weights times the value rows

  At a first tile the state read back is the reset's own stores (maximum -∞, sums 0); at the last tile the output
  block is the quotient of the new weighted sum by the new sum, both read back from the stores just made.
  These hold whatever the float values are.
-/
import proofs.«157783_j44830868636063_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic
open Idealize.ShloMosaic.Pipeline (Dat)

variable {F : FTy → Type} [FloatOps F]

/-- The zero offset of a whole-buffer access. -/
theorem hz : (![0, 0] : Fin 2 → Nat) = fun _ => 0 := funext fun a => by fin_cases a <;> rfl

variable (c : Dev nD) (i : grid0.Coords)
  (arg2 : Memref sig .tc .vmem S1024x2048 .i32) (harg2 : arg2.IsWhole) (arg3 : Memref sig .tc .vmem S1024x1 .f32) (harg3 : arg3.IsWhole)
  (arg4 : Memref sig .tc .vmem S1x2048 .f32) (harg4 : arg4.IsWhole) (arg5 : Memref sig .tc .vmem S2048x128 .bf16) (harg5 : arg5.IsWhole)
  (arg6 : Memref sig .tc .vmem S1024x128 .f32) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x128 .f32) (harg9 : arg9.IsWhole)
  (x0 : Vec F S1024x2048 .i32) (x1 : Vec F S1024x1 .f32) (x2 : Vec F S1x2048 .f32) (x3 : Vec F S2048x128 .bf16)
  (xs0 : Vec F S1024x1 .f32) (xs1 : Vec F S1024x1 .f32) (xs2 : Vec F S1024x128 .f32)

/-! ## A first tile: the state is reset, then updated -/

/-- FIRST TILE, the running maximum: the reset stores `-∞`, the update reads it back and stores the maximum of it and the
    tile's row maxima. -/
theorem firstMax (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3
      = k0_pay2 (k0_pay8 x0 x1 x2 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- FIRST TILE, the running sum: the reset stores `0`, the update reads it back, rescales it and adds the row sums of the
    tile's weights. -/
theorem firstSum (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3
      = k0_pay11 x0 x1 x2 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- FIRST TILE, the weighted sum: the reset stores `0`, the update reads it back, rescales it and adds the weights times
    the value rows. -/
theorem firstAcc (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3
      = k0_pay1 (k0_pay9 x0 x1 x2 k0_pay4 k0_pay4) (k0_pay12 x0 x1 x2 k0_pay4) x3 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x128) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-! ## A middle tile: the state the tile before left is updated -/

/-- MIDDLE TILE, the running maximum: one store, of the maximum of what the tile before left and the tile's row maxima. -/
theorem middleMax (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2
      = k0_pay2 (k0_pay8 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- MIDDLE TILE, the running sum: one store, of what the tile before left rescaled plus the row sums of the weights. -/
theorem middleSum (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2
      = k0_pay11 x0 x1 x2 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- MIDDLE TILE, the weighted sum: one store, of what the tile before left rescaled plus the weights times the value rows. -/
theorem middleAcc (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2
      = k0_pay1 (k0_pay9 x0 x1 x2 xs0 xs0) (k0_pay12 x0 x1 x2 xs0) x3 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x128) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-! ## The last tile: updated, and the quotient stored to the output block -/

/-- LAST TILE, the running maximum: as at a middle tile. -/
theorem lastMax (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2
      = k0_pay2 (k0_pay8 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- LAST TILE, the running sum: as at a middle tile. -/
theorem lastSum (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2
      = k0_pay11 x0 x1 x2 xs0 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x1) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- LAST TILE, the weighted sum: as at a middle tile. -/
theorem lastAcc (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2
      = k0_pay1 (k0_pay9 x0 x1 x2 xs0 xs0) (k0_pay12 x0 x1 x2 xs0) x3 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x128) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

/-- LAST TILE, the output block: one store, of the quotient of the weighted sum by the sum, each read back from the store
    this same tile has just made. -/
theorem lastOut (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2
      = k0_pay3 (k0_pay1 (k0_pay9 x0 x1 x2 xs0 xs0) (k0_pay12 x0 x1 x2 xs0) x3 xs2) (k0_pay11 x0 x1 x2 xs0 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x128) hz]
  simp only [View.readCov_unit_zero (S := S1024x1) _ hz, View.readCov_unit_zero (S := S1024x128) _ hz, View.readAt_eq_ld, harg2.read_unread, harg3.read_unread, harg4.read_unread, harg5.read_unread, harg7.read_unread, harg8.read_unread, harg9.read_unread, View.ld_unit_zero (S := S1024x2048) hz, View.ld_unit_zero (S := S1024x1) hz, View.ld_unit_zero (S := S1x2048) hz, View.ld_unit_zero (S := S2048x128) hz, View.ld_unit_zero (S := S1024x128) hz]

end Cert.KernelIdeal.Pieces

end
-- ==== Proof.TileStep.lean ====
/-
  One key tile of the online softmax, read entry by entry on the extended reals.

  At a grid point the body holds a tile of adjacency words `x0 : [1024, 2048]`, the query projections of its rows
  `x1 : [1024, 1]`, the key projections of its columns `x2 : [1, 2048]`, the value rows of its keys
  `x3 : [2048, 128]`, and the running state: a maximum `m0` and a sum `l0` per row (`[1024, 1]` columns) and a
  weighted sum `acc0 : [1024, 128]`. With the tile's scores

      sc p q = x1 p + x2 q   where the adjacency word is positive,   the fill elsewhere,

  the body leaves, per row `p` (and feature `d`),

      m' p      = max (m0 p) (max over q of sc p q)
      l' p      = e^(m0 p - m' p) · l0 p      + ∑ q, e^(sc p q - m' p)
      acc' p d  = e^(m0 p - m' p) · acc0 p d  + ∑ q, e^(sc p q - m' p) · x3 q d

  and, at the last tile, the quotient `acc' p d / l' p`. Each line below reads one of the body's stored values at
  an entry: a reduction along a row is a fold of `max` or a sum over the row, a column spread along the rows reads
  its row's entry, the product with the value rows is a sum over the tile's keys.
-/
import proofs.«157783_j44830868636063_2_alg».proof.Proof.Gen.KernelIdeal.Skeleton
import proofs.«157783_j44830868636063_2_alg».proof.Proof.LibRowLayer
import Idealize.ShloMosaic.Lib.ValueLayout
import Idealize.ShloMosaic.Lib.Pipeline.Value

noncomputable section

open scoped BigOperators

namespace Cert.KernelIdeal.TileStep

open Cert.KernelIdeal Cert.KernelIdeal.Gen Idealize.ShloMosaic Idealize.ShloMosaic.ValueIdx Cert.RowLayer

variable (x0 : IVec S1024x2048 32) (x1 : FVec Ideal S1024x1 .f32) (x2 : FVec Ideal S1x2048 .f32)
  (x3 : FVec Ideal S2048x128 .bf16) (m0 l0 : FVec Ideal S1024x1 .f32) (acc0 : FVec Ideal S1024x128 .f32)

/-- The binary32 word of `-∞` denotes the bottom element. -/
theorem negInf : Ideal.ofBits .f32 0xFF800000#32 = (⊥ : EReal) := by simp [Ideal.ofBits, Ideal.ieee]

/-- The score of column `q` in row `p` of the tile. -/
def sc (p : Fin 1024) (q : Fin 2048) : EReal :=
  Scalar.select (IntOp.cmpi .sgt (x0 (ix2 p q)) 0#32) (x1 (ix2 p (0 : Fin 1)) + x2 (ix2 (0 : Fin 1) q))
    (Ideal.ofBits .f32 0xDA0E1BCA#32)

/-- The new running maximum of row `p`. -/
def mNew (p : Fin 1024) : EReal :=
  max (m0 (ix2 p (0 : Fin 1))) ((Finset.univ : Finset (Fin 2048)).fold max ⊥ (sc x0 x1 x2 p))

/-- The masked scores: the query column spread along the rows plus the key row spread along the columns, kept where the
    adjacency word is positive and replaced by the fill elsewhere. -/
theorem scores_apply (p : Fin 1024) (q : Fin 2048) :
    k0_pay7 (F := Ideal) x0 x1 x2 (ix2 p q) = sc x0 x1 x2 p q := by
  unfold k0_pay7 sc
  show Scalar.select (IntOp.cmpi .sgt (x0 (ix2 p q)) 0#32)
      (broadcastTo S1024x2048 (shapeCast S1024x1 x1 shapeCasts_S1024x1_S1024x1) broadcasts_S1024x1_S1024x2048 (ix2 p q)
        + broadcastTo S1024x2048 (shapeCast S1x2048 x2 shapeCasts_S1x2048_S1x2048) broadcasts_S1x2048_S1024x2048 (ix2 p q))
      (Ideal.ofBits .f32 0xDA0E1BCA#32) = _
  rw [shapeCast_self, shapeCast_self, broadcastTo_a1_ab_apply, broadcastTo_1b_ab_apply]

/-- Read at an entry, the exponential of an array is the exponential of the entry. -/
theorem exp_apply {s : Shape} (v : FVec Ideal s .f32) (i : s.Idx) : exp v i = Ideal.exp (v i) := rfl

/-- The running maximum is the old one against the row maxima of the scores, kept as a column. -/
theorem newMax_eq : k0_pay8 (F := Ideal) x0 x1 x2 m0
    = maximumf m0 (shapeCast S1024x1 (multiReduction .maximumf [1] S1024 (k0_pay7 (F := Ideal) x0 x1 x2) 0xFF800000#32
        reduces_S1024x2048_S1024 (.inl rfl) rfl) shapeCasts_S1024_S1024x1) := rfl

/-- The running maximum after the tile: the old one against the maximum of the row's scores. -/
theorem max_apply (p : Fin 1024) :
    k0_pay8 (F := Ideal) x0 x1 x2 m0 (ix2 p (0 : Fin 1)) = mNew x0 x1 x2 m0 p := by
  rw [newMax_eq, maximumf_apply]
  unfold mNew
  refine congrArg (max _) ?_
  refine (shapeCast_a_a1_apply _ shapeCasts_S1024_S1024x1 p 0).trans ?_
  refine (rowMax_apply (k0_pay7 (F := Ideal) x0 x1 x2) 0xFF800000#32 reduces_S1024x2048_S1024 (.inl rfl) rfl p).trans ?_
  rw [negInf]
  exact congrArg (fun f => Finset.fold max ⊥ f Finset.univ) (funext fun q => scores_apply x0 x1 x2 p q)

/-- What the body stores back as the running maximum is that value (a same-shape cast). -/
theorem storedMax_eq (v : FVec Ideal S1024x1 .f32) : k0_pay2 v = shapeCast S1024x1 v shapeCasts_S1024x1_S1024x1 := rfl

/-- The stored running maximum of row `p`. -/
theorem newMax_apply (p : Fin 1024) :
    k0_pay2 (k0_pay8 (F := Ideal) x0 x1 x2 m0) (ix2 p (0 : Fin 1)) = mNew x0 x1 x2 m0 p := by
  rw [storedMax_eq, shapeCast_self]
  exact max_apply x0 x1 x2 m0 p

/-- The rescaling factor is the exponential of the old maximum less the new one. -/
theorem scale_eq (m1 : FVec Ideal S1024x1 .f32) :
    k0_pay9 (F := Ideal) x0 x1 x2 m0 m1 = exp (subf m1 (k0_pay8 (F := Ideal) x0 x1 x2 m0)) := rfl

/-- The rescaling factor of row `p`: `e^(m0 p - m' p)`. -/
theorem scale_apply (p : Fin 1024) :
    k0_pay9 (F := Ideal) x0 x1 x2 m0 m0 (ix2 p (0 : Fin 1))
      = Ideal.exp (m0 (ix2 p (0 : Fin 1)) - mNew x0 x1 x2 m0 p) := by
  rw [scale_eq, exp_apply, subf_apply, max_apply]

/-- The tile's weights are the exponentials of the scores less the new maximum spread along the rows. -/
theorem weights_eq : k0_pay10 (F := Ideal) x0 x1 x2 m0
    = exp (subf (k0_pay7 (F := Ideal) x0 x1 x2)
        (broadcastTo S1024x2048 (k0_pay8 (F := Ideal) x0 x1 x2 m0) broadcasts_S1024x1_S1024x2048)) := rfl

/-- The tile's weights relative to the new maximum: `e^(sc p q - m' p)`. -/
theorem weights_apply (p : Fin 1024) (q : Fin 2048) :
    k0_pay10 (F := Ideal) x0 x1 x2 m0 (ix2 p q) = Ideal.exp (sc x0 x1 x2 p q - mNew x0 x1 x2 m0 p) := by
  rw [weights_eq, exp_apply, subf_apply, scores_apply, broadcastTo_a1_ab_apply, max_apply]

/-- The running sum is the old one times the rescaling factor plus the row sums of the weights, kept as a column. -/
theorem newSum_eq (m1 : FVec Ideal S1024x1 .f32) : k0_pay11 (F := Ideal) x0 x1 x2 m0 m1 l0
    = shapeCast S1024x1 (addf (mulf (k0_pay9 (F := Ideal) x0 x1 x2 m0 m1) l0)
        (shapeCast S1024x1 (multiReduction .add [1] S1024 (k0_pay10 (F := Ideal) x0 x1 x2 m0) 0x00000000#32
          reduces_S1024x2048_S1024 (.inl rfl) rfl) shapeCasts_S1024_S1024x1)) shapeCasts_S1024x1_S1024x1 := rfl

/-- The running sum after the tile: the old one rescaled plus the row's weights. -/
theorem newSum_apply (p : Fin 1024) :
    k0_pay11 (F := Ideal) x0 x1 x2 m0 m0 l0 (ix2 p (0 : Fin 1))
      = Ideal.exp (m0 (ix2 p (0 : Fin 1)) - mNew x0 x1 x2 m0 p) * l0 (ix2 p (0 : Fin 1))
        + ∑ q : Fin 2048, Ideal.exp (sc x0 x1 x2 p q - mNew x0 x1 x2 m0 p) := by
  rw [newSum_eq, shapeCast_self, addf_apply, mulf_apply, scale_apply]
  refine congrArg (HAdd.hAdd (α := EReal) (β := EReal) (γ := EReal) _) ?_
  refine (shapeCast_a_a1_apply _ shapeCasts_S1024_S1024x1 p 0).trans ?_
  refine (rowSum_apply (k0_pay10 (F := Ideal) x0 x1 x2 m0) 0x00000000#32 reduces_S1024x2048_S1024 (.inl rfl) rfl p).trans ?_
  exact Finset.sum_congr rfl fun q _ => weights_apply x0 x1 x2 m0 p q

/-- The weights enter the product with the value rows after a change of float format, the identity here. -/
theorem castWeights_eq : k0_pay12 (F := Ideal) x0 x1 x2 m0
    = truncf .bf16 (k0_pay10 (F := Ideal) x0 x1 x2 m0) bitsLt_bf16_f32 := rfl

/-- The running weighted sum is the old one times the rescaling factor (spread along the features) plus the product
    of the weights with the value rows into a zero accumulator. -/
theorem newAcc_eq (a : FVec Ideal S1024x1 .f32) (w : FVec Ideal S1024x2048 .bf16) :
    k0_pay1 (F := Ideal) a w x3 acc0
      = shapeCast S1024x128 (addf (mulf (broadcastTo S1024x128 a broadcasts_S1024x1_S1024x128) acc0)
          (matmul dot_S1024x2048_S2048x128_S1024x128_1_0_0_1_n_n none w
            (shapeCast S2048x128 x3 shapeCasts_S2048x128_S2048x128) (constant S1024x128 .f32 0x00000000#32)))
          shapeCasts_S1024x128_S1024x128 := rfl

/-- The running weighted sum after the tile: the old one rescaled plus the weights contracted with the value rows. -/
theorem newAcc_apply (p : Fin 1024) (d : Fin 128) :
    k0_pay1 (k0_pay9 (F := Ideal) x0 x1 x2 m0 m0) (k0_pay12 (F := Ideal) x0 x1 x2 m0) x3 acc0 (ix2 p d)
      = Ideal.exp (m0 (ix2 p (0 : Fin 1)) - mNew x0 x1 x2 m0 p) * acc0 (ix2 p d)
        + ∑ q : Fin 2048, Ideal.exp (sc x0 x1 x2 p q - mNew x0 x1 x2 m0 p) * x3 (ix2 q d) := by
  rw [newAcc_eq, shapeCast_self, shapeCast_self, addf_apply, mulf_apply, broadcastTo_a1_ab_apply, scale_apply]
  refine congrArg (HAdd.hAdd (α := EReal) (β := EReal) (γ := EReal) _) ?_
  refine (Ideal.matmul_constant_zero_apply dot_S1024x2048_S2048x128_S1024x128_1_0_0_1_n_n none _ _ (ix2 p d)).trans ?_
  refine (Cert.PlainDot.sum_contr dot_S1024x2048_S2048x128_S1024x128_1_0_0_1_n_n ⟨rfl, rfl, rfl, rfl, rfl, rfl⟩
    (k0_pay12 (F := Ideal) x0 x1 x2 m0) x3 p d).trans ?_
  refine Finset.sum_congr rfl fun q _ => congrArg (fun x : EReal => x * x3 (ix2 q d)) ?_
  rw [castWeights_eq, truncf_apply]
  exact weights_apply x0 x1 x2 m0 p q

/-- The output of the last tile is the weighted sum divided by the sum spread along the features. -/
theorem quotient_eq (acc : FVec Ideal S1024x128 .f32) (l : FVec Ideal S1024x1 .f32) :
    k0_pay3 (F := Ideal) acc l = divf acc (broadcastTo S1024x128 l broadcasts_S1024x1_S1024x128) := rfl

/-- The output entry `(p, d)` of the last tile: the weighted sum over the sum of its row. -/
theorem quotient_apply (acc : FVec Ideal S1024x128 .f32) (l : FVec Ideal S1024x1 .f32) (p : Fin 1024) (d : Fin 128) :
    k0_pay3 (F := Ideal) acc l (ix2 p d) = Ideal.div (acc (ix2 p d)) (l (ix2 p (0 : Fin 1))) := by
  rw [quotient_eq, divf_apply, broadcastTo_a1_ab_apply]

/-- The state a first tile starts from: maximum `⊥`, both sums zero. -/
theorem initMax_eq : k0_pay4 (F := Ideal)
    = shapeCast S1024x1 (broadcast S1024x1 (FloatOps.ofBits (F := Ideal) .f32 0xFF800000#32)) shapeCasts_S1024x1_S1024x1 := rfl

/-- The reset maximum is `⊥` at every entry. -/
theorem initMax_apply (j : S1024x1.Idx) : k0_pay4 (F := Ideal) j = (⊥ : EReal) := by
  rw [initMax_eq, shapeCast_self, broadcast_apply, Ideal.ofBits_def]
  exact negInf

/-- The reset sum is a broadcast of the zero word. -/
theorem initSum_eq : k0_pay5 (F := Ideal)
    = shapeCast S1024x1 (broadcast S1024x1 (FloatOps.ofBits (F := Ideal) .f32 0x00000000#32)) shapeCasts_S1024x1_S1024x1 := rfl

/-- The reset sum is `0` at every entry. -/
theorem initSum_apply (j : S1024x1.Idx) : k0_pay5 (F := Ideal) j = (0 : EReal) := by
  rw [initSum_eq, shapeCast_self, broadcast_apply, Ideal.ofBits_def]
  exact Ideal.ofBits_zero_f32

/-- The reset weighted sum is a broadcast of the zero word. -/
theorem initAcc_eq : k0_pay6 (F := Ideal)
    = shapeCast S1024x128 (broadcast S1024x128 (FloatOps.ofBits (F := Ideal) .f32 0x00000000#32)) shapeCasts_S1024x128_S1024x128 := rfl

/-- The reset weighted sum is `0` at every entry. -/
theorem initAcc_apply (j : S1024x128.Idx) : k0_pay6 (F := Ideal) j = (0 : EReal) := by
  rw [initAcc_eq, shapeCast_self, broadcast_apply, Ideal.ofBits_def]
  exact Ideal.ofBits_zero_f32

end Cert.KernelIdeal.TileStep

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.LibOnlineTiles.lean ====
/-
  An online softmax over a row of scores taken in consecutive tiles of `n` keys.

  The scores of one query row are a sequence `S k` of real numbers and the value of key `k` at one feature a real
  `v k`. After `j` tiles the keys seen are `0, …, n·j - 1`; their total weight and weighted value are the
  partial sums

      W j = ∑ k < n·j, e^(S k),        A j = ∑ k < n·j, e^(S k) · v k.

  The running state `(m, l, acc)` of the online softmax satisfies, after `j` tiles, the invariant of the
  single-block algebra for `W j` and `A j` (`l = W j · e^(-m)`, `acc = A j · e^(-m)`): it holds before any tile,
  one more tile keeps it (the block's scores are keys `n·j, …, n·j + n - 1`), and after all `K` tiles the
  quotient `acc / l` is `(∑ k < N, e^(S k) · v k) / (∑ k < N, e^(S k))` with `N = n·K` — the softmax of the whole
  row contracted with the values, whatever the tiling.
-/
import proofs.«157783_j44830868636063_2_alg».proof.Proof.LibOnlineSoftmax
import proofs.«157783_j44830868636063_2_alg».proof.Proof.LibBlockAcc

noncomputable section

open scoped BigOperators

namespace Cert.OnlineTiles

open Idealize.ShloMosaic Cert.Lib.OnlineSoftmax BlockAcc

variable (n : ℕ) (S : ℕ → EReal) (v : ℕ → ℝ)

/-- The total weight of the first `j` tiles. -/
def W (j : ℕ) : ℝ := partialSum n (fun k => wt (S k)) j

/-- The weighted value of the first `j` tiles. -/
def A (j : ℕ) : ℝ := partialSum n (fun k => wt (S k) * v k) j

/-- Before any tile: maximum `⊥`, both sums zero, and nothing seen. -/
theorem inv_zero : Inv ⊥ 0 0 (W n S 0) (A n S v 0) := by
  unfold W A
  rw [partialSum_zero, partialSum_zero]
  exact Inv.init

/-- One more tile. From a state satisfying the invariant after `j` tiles, the tile of keys `n·j + q`, `q < n`,
    leaves the new maximum, the rescaled sum plus the tile's weights, and the rescaled weighted sum plus the tile's
    weighted values — a state satisfying the invariant after `j + 1` tiles. -/
theorem inv_succ [NeZero n] {m l acc : EReal} (j : ℕ) (h : Inv m l acc (W n S j) (A n S v j)) (hS : ∀ k, S k ≠ ⊤) :
    Inv (max m ((Finset.univ : Finset (Fin n)).fold max ⊥ (fun q => S (n * j + q.val))))
      (Ideal.exp (m - max m ((Finset.univ : Finset (Fin n)).fold max ⊥ (fun q => S (n * j + q.val)))) * l
        + ∑ q : Fin n, Ideal.exp (S (n * j + q.val) - max m ((Finset.univ : Finset (Fin n)).fold max ⊥ (fun q => S (n * j + q.val)))))
      (Ideal.exp (m - max m ((Finset.univ : Finset (Fin n)).fold max ⊥ (fun q => S (n * j + q.val)))) * acc
        + ∑ q : Fin n, Ideal.exp (S (n * j + q.val) - max m ((Finset.univ : Finset (Fin n)).fold max ⊥ (fun q => S (n * j + q.val))))
            * ((v (n * j + q.val) : ℝ) : EReal))
      (W n S (j + 1)) (A n S v (j + 1)) := by
  haveI : Nonempty (Fin n) := ⟨⟨0, Nat.pos_of_ne_zero (NeZero.ne n)⟩⟩
  unfold W A at h ⊢
  rw [partialSum_succ, partialSum_succ]
  exact h.step (fun q : Fin n => S (n * j + q.val)) (fun q => hS _) (fun q => v (n * j + q.val)) _
    (fun q => le_fold_max (fun q : Fin n => S (n * j + q.val)) q)
    (Or.inr (fold_max_attained (fun q : Fin n => S (n * j + q.val))))

/-- After all `K` tiles of a row of real scores the quotient of the two running sums is the weighted mean of
    the values over the whole row. -/
theorem out_all {m l acc : EReal} (K N : ℕ) (hN : N = n * K) (hpos : 0 < N)
    (h : Inv m l acc (W n S K) (A n S v K)) (hS : ∀ k, ∃ r : ℝ, S k = (r : EReal)) :
    Ideal.div acc l = (((∑ k : Fin N, wt (S k.val) * v k.val) / (∑ k : Fin N, wt (S k.val)) : ℝ) : EReal) := by
  unfold W A at h
  rw [partialSum_all n K N hN, partialSum_all n K N hN] at h
  refine h.out ?_
  haveI : Nonempty (Fin N) := ⟨⟨0, hpos⟩⟩
  refine Finset.sum_pos (fun k _ => ?_) Finset.univ_nonempty
  obtain ⟨r, hr⟩ := hS k.val
  rw [hr, wt_coe]
  exact Real.exp_pos r

end Cert.OnlineTiles

end
-- ==== Proof.TileInvariant.lean ====
/-
  One key tile keeps the online-softmax invariant.

  Fix a row `p` of a tile and a feature `d`. Suppose the tile's scores along the row are the keys
  `2048·j, …, 2048·j + 2047` of a row of scores `S`, the value rows' entries at `d` are the reals `v` of the same
  keys, and the state the tile starts from satisfies the invariant after `j` tiles (its sums are the partial
  weight `W j` and partial weighted value `A j` times `e^(-m)`). Then the three values the body stores — the new
  maximum, the rescaled sum plus the tile's weights, the rescaled weighted sum plus the weights times the values —
  satisfy the invariant after `j + 1` tiles.
-/
import proofs.«157783_j44830868636063_2_alg».proof.Proof.TileStep
import proofs.«157783_j44830868636063_2_alg».proof.Proof.LibOnlineTiles

noncomputable section

open scoped BigOperators

namespace Cert.KernelIdeal.TileStep

open Cert.KernelIdeal Cert.KernelIdeal.Gen Idealize.ShloMosaic Idealize.ShloMosaic.ValueIdx
open Cert.OnlineTiles Cert.Lib.OnlineSoftmax

/-- ONE TILE. The three stored values, read at row `p` (and feature `d`), are the single-block step of the online
    softmax on the tile's keys, so they carry the invariant from `j` tiles to `j + 1`. -/
theorem tile_inv (x0 : IVec S1024x2048 32) (x1 : FVec Ideal S1024x1 .f32) (x2 : FVec Ideal S1x2048 .f32)
    (x3 : FVec Ideal S2048x128 .bf16) (m0 l0 : FVec Ideal S1024x1 .f32) (acc0 : FVec Ideal S1024x128 .f32)
    (p : Fin 1024) (d : Fin 128) (S : ℕ → EReal) (v : ℕ → ℝ) (j : ℕ)
    (hsc : ∀ q : Fin 2048, sc x0 x1 x2 p q = S (2048 * j + q.val))
    (hv : ∀ q : Fin 2048, x3 (ix2 q d) = ((v (2048 * j + q.val) : ℝ) : EReal))
    (hS : ∀ k, S k ≠ ⊤)
    (h : Inv (m0 (ix2 p (0 : Fin 1))) (l0 (ix2 p (0 : Fin 1))) (acc0 (ix2 p d)) (W 2048 S j) (A 2048 S v j)) :
    Inv (k0_pay2 (k0_pay8 (F := Ideal) x0 x1 x2 m0) (ix2 p (0 : Fin 1)))
      (k0_pay11 (F := Ideal) x0 x1 x2 m0 m0 l0 (ix2 p (0 : Fin 1)))
      (k0_pay1 (k0_pay9 (F := Ideal) x0 x1 x2 m0 m0) (k0_pay12 (F := Ideal) x0 x1 x2 m0) x3 acc0 (ix2 p d))
      (W 2048 S (j + 1)) (A 2048 S v (j + 1)) := by
  rw [newMax_apply, newSum_apply, newAcc_apply]
  have e : sc x0 x1 x2 p = fun q : Fin 2048 => S (2048 * j + q.val) := funext hsc
  unfold mNew
  rw [e]
  simp only [hv]
  exact inv_succ 2048 S v j h hS

end Cert.KernelIdeal.TileStep

end
-- ==== Proof.Blocks.lean ====
/-
  Where each input block of a grid point sits in its array.

  The kernel runs over a grid of 8 × 4 points, point `t = 4·i + j`: row block `i = t / 4` of 1024 query rows against key
  tile `j = t % 4` of 2048 keys. Each window's index map sends the point to a block index, and a block's entry at
  `(p, q)` is the array's entry at (block index × block size + coordinate inside the block) on each axis:

      adjacency  block (i, j) of [1024, 2048]:   entry (p, q) is  adj (1024·i + p, 2048·j + q)
      a1         block (i, 0) of [1024, 1]:      entry (p, 0) is  a1 (1024·i + p, 0)
      a2ᵀ        block (0, j) of [1, 2048]:      entry (0, q) is  a2ᵀ (0, 2048·j + q)
      values     block (j, 0) of [2048, 128]:    entry (q, d) is  h (2048·j + q, d)
      output     block (i, 0) of [1024, 128].

  The block indices are decided once over the 32 grid points; the rest is arithmetic on one coordinate at a time.
-/
import proofs.«157783_j44830868636063_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ) (c : Dev nD)

/-- The query row of the whole array that row p of point t's block is. -/
def rowOf (t : Fin cfg0.N) (p : Fin 1024) : Fin 8192 := ⟨1024 * (t.val / 4) + p.val, by have h := t.isLt; have hN : cfg0.N = 32 := N_0; omega⟩
/-- The key of the whole array that column q of point t's tile is. -/
def keyOf (t : Fin cfg0.N) (q : Fin 2048) : Fin 8192 := ⟨2048 * (t.val % 4) + q.val, by have := q.isLt; omega⟩

/-! ## The block indices, decided over the grid -/

/-- The adjacency block of point `t` is block `(t / 4, t % 4)`. -/
theorem adj_index : ∀ t : Fin cfg0.N, win0_0.index t 0 = t.val / 4 ∧ win0_0.index t 1 = t.val % 4 :=
  (by decide +kernel : ∀ t : Fin grid0.N, _)
/-- The block of `a1` of point `t` is block `(t / 4, 0)`. -/
theorem query_index : ∀ t : Fin cfg0.N, win0_1.index t 0 = t.val / 4 ∧ win0_1.index t 1 = 0 :=
  (by decide +kernel : ∀ t : Fin grid0.N, _)
/-- The block of `a2ᵀ` of point `t` is block `(0, t % 4)`. -/
theorem key_index : ∀ t : Fin cfg0.N, win0_2.index t 0 = 0 ∧ win0_2.index t 1 = t.val % 4 :=
  (by decide +kernel : ∀ t : Fin grid0.N, _)
/-- The value block of point `t` is block `(t % 4, 0)`. -/
theorem value_index : ∀ t : Fin cfg0.N, win0_3.index t 0 = t.val % 4 ∧ win0_3.index t 1 = 0 :=
  (by decide +kernel : ∀ t : Fin grid0.N, _)
/-- The output block of point t covers rows 1024·(t/4) … of all 128 columns. -/
theorem out_index : ∀ t : Fin cfg0.N, win0_4.index t 0 = t.val / 4 ∧ win0_4.index t 1 = 0 :=
  (by decide +kernel : ∀ t : Fin grid0.N, _)

/-! ## The block reads -/

/-- Entry `(p, q)` of point `t`'s adjacency block is entry `(1024·(t/4) + p, 2048·(t%4) + q)` of the adjacency array: on
    each axis the block's coordinate is block index × block size + the coordinate inside the block. -/
theorem adj_block (t : Fin cfg0.N) (p : Fin 1024) (q : Fin 2048) :
    (iblk m c 0 t : Vec F S1024x2048 .i32) (ix2 p q) = V m c main_arg1 (ix2 (rowOf t p) (keyOf t q)) := by
  obtain ⟨e0, e1⟩ := adj_index t
  unfold iblk
  rw [View.read_apply]
  show V m c main_arg1 _ = V m c main_arg1 _
  refine congrArg _ (funext fun a => Fin.ext ?_)
  match a with
  | ⟨0, _⟩ => show win0_0.index t 0 * 1024 + 1 * p.val = 1024 * (t.val / 4) + p.val; rw [e0]; omega
  | ⟨1, _⟩ => show win0_0.index t 1 * 2048 + 1 * q.val = 2048 * (t.val % 4) + q.val; rw [e1]; omega

/-- Row `p` of point `t`'s block of `a1` is row `1024·(t/4) + p` of `a1`. -/
theorem query_block (t : Fin cfg0.N) (p : Fin 1024) :
    (iblk m c 1 t : Vec F S1024x1 .f32) (ix2 p (0 : Fin 1)) = V m c main_v7 (ix2 (rowOf t p) (0 : Fin 1)) := by
  obtain ⟨e0, e1⟩ := query_index t
  unfold iblk
  rw [View.read_apply]
  show V m c main_v7 _ = V m c main_v7 _
  refine congrArg _ (funext fun a => Fin.ext ?_)
  match a with
  | ⟨0, _⟩ => show win0_1.index t 0 * 1024 + 1 * p.val = 1024 * (t.val / 4) + p.val; rw [e0]; omega
  | ⟨1, _⟩ => show win0_1.index t 1 * 1 + 1 * (0 : Fin 1).val = (0 : Fin 1).val; rw [e1]; rfl

/-- Column `q` of point `t`'s tile of `a2ᵀ` is column `2048·(t%4) + q` of `a2ᵀ`. -/
theorem key_block (t : Fin cfg0.N) (q : Fin 2048) :
    (iblk m c 2 t : Vec F S1x2048 .f32) (ix2 (0 : Fin 1) q) = V m c main_v12 (ix2 (0 : Fin 1) (keyOf t q)) := by
  obtain ⟨e0, e1⟩ := key_index t
  unfold iblk
  rw [View.read_apply]
  show V m c main_v12 _ = V m c main_v12 _
  refine congrArg _ (funext fun a => Fin.ext ?_)
  match a with
  | ⟨0, _⟩ => show win0_2.index t 0 * 1 + 1 * (0 : Fin 1).val = (0 : Fin 1).val; rw [e0]; rfl
  | ⟨1, _⟩ => show win0_2.index t 1 * 2048 + 1 * q.val = 2048 * (t.val % 4) + q.val; rw [e1]; omega

/-- Row `q` of point `t`'s value tile is row `2048·(t%4) + q` of the values, column for column. -/
theorem value_block (t : Fin cfg0.N) (q : Fin 2048) (d : Fin 128) :
    (iblk m c 3 t : Vec F S2048x128 .bf16) (ix2 q d) = V m c main_v13 (ix2 (keyOf t q) d) := by
  obtain ⟨e0, e1⟩ := value_index t
  unfold iblk
  rw [View.read_apply]
  show V m c main_v13 _ = V m c main_v13 _
  refine congrArg _ (funext fun a => Fin.ext ?_)
  match a with
  | ⟨0, _⟩ => show win0_3.index t 0 * 2048 + 1 * q.val = 2048 * (t.val % 4) + q.val; rw [e0]; omega
  | ⟨1, _⟩ => show win0_3.index t 1 * 128 + 1 * d.val = d.val; rw [e1]; omega

end Cert.KernelIdeal.Blocks

end
-- ==== Proof.OutputCover.lean ====
/-
  From the blocks the kernel writes back to its whole output array.

  The kernel runs on an 8 × 4 grid, point `t = 4 · i + j` (`i` the block of 1024 query rows, `j` the tile of 2048
  keys). Its output, an `[8192, 128]` array, is seen through `[1024, 128]` blocks with index map `(i, j) ↦ (i, 0)`:
  point `t` works on the rows `1024 · (t / 4) … 1024 · (t / 4) + 1023`, all 128 columns. The block is written back
  only after the last key tile of a row block, at the points `t ≡ 3 (mod 4)`. Those eight blocks tile the array:
  row `r` lies in the block of the point `t = 4 · (r / 1024) + 3`, since `t / 4 = r / 1024` and
  `1024 · (r / 1024) ≤ r < 1024 · (r / 1024) + 1024`.

  So if what every write-back writes is the block, at its point, of ONE function `G` of the whole array's index,
  the array ends holding `G` (`final_of_flushed`); and reading `G` through point `t`'s block at `(p, d)` is reading
  it at row `1024 · (t / 4) + p`, column `d` (`out_block`).
-/
import proofs.«157783_j44830868636063_2_alg».proof.Proof.Gen.KernelIdeal.Value
import Idealize.ShloMosaic.Lib.Pipeline.Value
import Idealize.ShloMosaic.Lib.ValueIdx

noncomputable section

namespace Cert.KernelIdeal.OutputCover

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F] (m : (ℓ : Loc nD τ sig) → Buf (Elt F) ℓ) (c : Dev nD)

/-- The output's index map over the grid: at point `t = 4 · i + j` the block index is `(i, 0) = (t / 4, 0)`. Decided
    once, over the 32 points. -/
theorem out_index : ∀ t : Fin cfg0.N, win0_4.index t (0 : Fin 2) = t.val / 4 ∧ win0_4.index t (1 : Fin 2) = 0 :=
  (by decide +kernel : ∀ t : Fin grid0.N, _)

/-- Entry `(p, d)` of point `t`'s output block, read through the block from a whole-array function `G`, is `G` at
    row `1024 · (t / 4) + p`, column `d`: a block's coordinate on an axis is block index × block size + the coordinate
    inside the block, here `(t / 4) · 1024 + p` and `0 · 128 + d`. -/
theorem out_block (t : Fin cfg0.N) (G : S8192x128.Idx → Elt F .f32) (p : Fin 1024) (d : Fin 128)
    (h : 1024 * (t.val / 4) + p.val < 8192) :
    (((cfg0.win 4).blk t).view.read (Elt F) G : Vec F S1024x128 .f32) (ix2 p d)
      = G (ix2 (⟨1024 * (t.val / 4) + p.val, h⟩ : Fin 8192) d) := by
  rw [View.read_apply]
  show G (((cfg0.win 4).blk t).view.emb (ix2 p d)) = _
  refine congrArg G ?_
  -- the two indices agree axis by axis
  funext a
  apply Fin.ext
  match a with
  | ⟨0, _⟩ =>
    show win0_4.index t (0 : Fin 2) * 1024 + 1 * p.val = 1024 * (t.val / 4) + p.val
    rw [(out_index t).1]; omega
  | ⟨1, _⟩ =>
    show win0_4.index t (1 : Fin 2) * 128 + 1 * d.val = d.val
    rw [(out_index t).2]; omega

/-- An index of the array is in point `t`'s block iff, on each axis, its coordinate lies in the block's range
    `[index · size, index · size + size)`. -/
theorem mem_out_blk (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v14).slice (win0_4.rect t)).set ↔ _
  rw [View.set_slice_whole, Rect.mem_set_unit]
  exact Iff.rfl

/-- THE COVER. Every index `(r, d)` of the array is in the block of a point that writes back: the point
    `t = 4 · (r / 1024) + 3`. It is below 32 because `r / 1024 ≤ 7`; it writes back because `t % 4 = 3`; its block's
    rows start at `1024 · (t / 4) = 1024 · (r / 1024) ≤ r` and end above `r`, and its columns are all 128. -/
theorem cover (i : S8192x128.Idx) :
    ∃ t : Fin cfg0.N, (cfg0.win 4).flush t = true ∧ i ∈ ((cfg0.win 4).blk t).view.set := by
  have hN : cfg0.N = 32 := N_0
  have h0 : (i 0).val < 8192 := (i 0).isLt
  have h1 : (i 1).val < 128 := (i 1).isLt
  have ht : 4 * ((i 0).val / 1024) + 3 < cfg0.N := by omega
  obtain ⟨e0, e1⟩ := out_index ⟨4 * ((i 0).val / 1024) + 3, ht⟩
  refine ⟨⟨4 * ((i 0).val / 1024) + 3, ht⟩,
    (flush0_4 _).mpr (by show (4 * ((i 0).val / 1024) + 3) % 4 = 3; omega), ?_⟩
  rw [mem_out_blk]
  intro a
  match a with
  | ⟨0, _⟩ =>
    show win0_4.index ⟨4 * ((i 0).val / 1024) + 3, ht⟩ (0 : Fin 2) * 1024 ≤ (i 0).val
      ∧ (i 0).val < win0_4.index ⟨4 * ((i 0).val / 1024) + 3, ht⟩ (0 : Fin 2) * 1024 + 1024
    rw [e0]; dsimp only; omega
  | ⟨1, _⟩ =>
    show win0_4.index ⟨4 * ((i 0).val / 1024) + 3, ht⟩ (1 : Fin 2) * 128 ≤ (i 1).val
      ∧ (i 1).val < win0_4.index ⟨4 * ((i 0).val / 1024) + 3, ht⟩ (1 : Fin 2) * 128 + 128
    rw [e1]; omega

/-- If every write-back writes the block of ONE whole-array function `G`, the output array ends as `G`: the
    written blocks cover it, and where two points' blocks meet they write the same values. -/
theorem final_of_flushed (G : S8192x128.Idx → Elt F .f32)
    (hfl : ∀ t : Fin cfg0.N, (cfg0.win 4).flush t = true →
      (dats m 0 c).flushed 4 t = ((cfg0.win 4).blk t).view.read (Elt F) G) :
    (dats m 0 c).arrAt 4 cfg0.N = G :=
  (dats m 0 c).arrAt_eq_of_cover 4 G hfl cover

end Cert.KernelIdeal.OutputCover

end
-- ==== Proof.KernelValue.lean ====
/-
  The kernel's output array is the attention of the arrays its windows read.

  The grid has 8 row blocks of 1024 queries and, for each, 4 key tiles of 2048 keys, visited in that order
  (point `n`: row block `n / 4`, tile `n % 4`). Three scratch buffers carry the online-softmax state of the
  current row block from tile to tile. The induction over the points shows that after the tile `n % 4` the state
  of row `p` of the block (at feature `d`) satisfies the online-softmax invariant for the partial weight and
  partial weighted value of the keys `0 … 2048·(n % 4 + 1) - 1` of query row `1024·(n / 4) + p`: a first tile
  starts from the reset state, a later one from what the tile before left, and one tile step keeps the invariant.
  At a last tile the body also stores the quotient of the two sums, which the invariant after all four tiles
  makes the weighted mean of the value rows over all 8192 keys: the attention output. Only those points write
  their output block back, and the eight blocks tile the array.
-/
import proofs.«157783_j44830868636063_2_alg».proof.Proof.Gen.KernelIdeal.Value
import proofs.«157783_j44830868636063_2_alg».proof.Proof.Pieces
import proofs.«157783_j44830868636063_2_alg».proof.Proof.TileInvariant
import proofs.«157783_j44830868636063_2_alg».proof.Proof.Blocks
import proofs.«157783_j44830868636063_2_alg».proof.Proof.OutputCover
import proofs.«157783_j44830868636063_2_alg».proof.Proof.Attention
import proofs.«157783_j44830868636063_2_alg».proof.Proof.LibRealSum

noncomputable section

open scoped BigOperators

namespace Cert.KernelIdeal.AttnValue

open Cert.KernelIdeal Cert.KernelIdeal.Gen Idealize.ShloMosaic Idealize.ShloMosaic.TcCoe Idealize.ShloMosaic.ValueIdx Idealize.SL.Sem
open Cert.KernelIdeal.Blocks Cert.KernelIdeal.TileStep Cert.OnlineTiles Cert.Lib.OnlineSoftmax Cert.Lib.RealSum Cert.Attention
open Idealize.ShloMosaic.Pipeline (Dat)

variable (m : (ℓ : Loc nD τ sig) → Buf (Elt Ideal) ℓ) (ρ : Dev nD → PrngReg) (c : Dev nD)

/-! ## The arrays the windows read, and one query row of them as sequences of keys -/

/-- The adjacency words, as the region finds them. -/
def adjArr : (⟨2, ![8192, 8192]⟩ : Shape).Idx → BitVec 32 := V m c main_arg1
/-- The query projections, an `[8192, 1]` column. -/
def queryCol : (⟨2, ![8192, 1]⟩ : Shape).Idx → EReal := V m c main_v7
/-- The key projections, a `[1, 8192]` row. -/
def keyRow : (⟨2, ![1, 8192]⟩ : Shape).Idx → EReal := V m c main_v12
/-- The value rows. -/
def valueRows : (⟨2, ![8192, 128]⟩ : Shape).Idx → EReal := V m c main_v13

/-- The three float arrays hold real numbers. -/
structure RealArrays : Prop where
  query : ∀ i, IsReal (queryCol m c i)
  key : ∀ i, IsReal (keyRow m c i)
  value : ∀ i, IsReal (valueRows m c i)

/-- The scores of query row `r` as a sequence of keys (zero past the last key). -/
def rowScores (r : Fin 8192) (k : ℕ) : EReal :=
  if h : k < 8192 then score (adjArr m c) (queryCol m c) (keyRow m c) r ⟨k, h⟩ else 0

/-- The values of feature `d` as a sequence of keys (zero past the last key). -/
def colValues (d : Fin 128) (k : ℕ) : ℝ :=
  if h : k < 8192 then (valueRows m c (ix2 (⟨k, h⟩ : Fin 8192) d)).toReal else 0

/-- The query row that row `p` of point `n`'s block is. -/
def rowAt (n : ℕ) (p : Fin 1024) : Fin 8192 := ⟨1024 * (n / 4 % 8) + p.val, by have := p.isLt; omega⟩

/-- The same row, named from the point as a number: a point is below 32, so its row block `t / 4` is below 8. -/
theorem rowOf_eq (t : Fin cfg0.N) (p : Fin 1024) : rowOf t p = rowAt t.val p := by
  have hN : cfg0.N = 32 := N_0
  have ht := t.isLt
  refine Fin.ext ?_
  show 1024 * (t.val / 4) + p.val = 1024 * (t.val / 4 % 8) + p.val
  omega

/-- The fill is the real number `-(9313226 · 2^30)`. -/
theorem fill_eq : fill = ((-(9313226 * 2 ^ 30) : ℝ) : EReal) := by
  simp [fill, Ideal.ofBits, Ideal.ieee, -EReal.coe_mul, -EReal.coe_pow]

/-- Every score of a row is a real number: a sum of two reals or the fill. -/
theorem rowScores_real (h : RealArrays m c) (r : Fin 8192) (k : ℕ) : ∃ x : ℝ, rowScores m c r k = (x : EReal) := by
  unfold rowScores
  split
  · exact IsReal.select _ ((h.query _).add (h.key _)) ⟨_, fill_eq⟩
  · exact ⟨0, rfl⟩

/-- In particular no score is `⊤`. -/
theorem rowScores_ne_top (h : RealArrays m c) (r : Fin 8192) (k : ℕ) : rowScores m c r k ≠ ⊤ := by
  obtain ⟨x, hx⟩ := rowScores_real m c h r k
  rw [hx]
  exact EReal.coe_ne_top x

/-- The scores of row `p` of point `t`'s tile are the keys `2048·(t % 4) + q` of its query row. -/
theorem tile_scores (t : Fin cfg0.N) (p : Fin 1024) (q : Fin 2048) :
    sc (iblk m c 0 t) (iblk m c 1 t) (iblk m c 2 t) p q = rowScores m c (rowAt t.val p) (2048 * (t.val % 4) + q.val) := by
  have hq := q.isLt
  unfold sc rowScores
  rw [adj_block, query_block, key_block, dif_pos (show 2048 * (t.val % 4) + q.val < 8192 by omega), rowOf_eq]
  rfl

/-- The value rows of point `t`'s tile at feature `d` are the values of the same keys. -/
theorem tile_values (h : RealArrays m c) (t : Fin cfg0.N) (q : Fin 2048) (d : Fin 128) :
    (iblk m c 3 t : FVec Ideal S2048x128 .bf16) (ix2 q d) = ((colValues m c d (2048 * (t.val % 4) + q.val) : ℝ) : EReal) := by
  have hq := q.isLt
  unfold colValues
  rw [value_block, dif_pos (show 2048 * (t.val % 4) + q.val < 8192 by omega)]
  obtain ⟨x, hx⟩ := h.value (ix2 (keyOf t q) d)
  show valueRows m c (ix2 (keyOf t q) d) = ((valueRows m c (ix2 (keyOf t q) d)).toReal : EReal)
  rw [hx, EReal.toReal_coe]

/-! ## What the scratch buffers hold after each point, as values of the tile step -/

/-- After a first tile the running maximum is the tile step of the reset state. -/
theorem first_max (t : Fin cfg0.N) (h0 : t.val % 4 = 0) (h1 : ¬t.val % 4 = 3) :
    (outsAt0 m c t.val t.isLt).2.1 = k0_pay2 (k0_pay8 (iblk m c 0 t) (iblk m c 1 t) (iblk m c 2 t) (k0_pay4 (F := Ideal))) := by
  rw [outsAt0_A m c t h0 h1]
  dsimp only
  exact Pieces.firstMax (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- After a first tile the running sum is the tile step of the reset state. -/
theorem first_sum (t : Fin cfg0.N) (h0 : t.val % 4 = 0) (h1 : ¬t.val % 4 = 3) :
    (outsAt0 m c t.val t.isLt).2.2.1 = k0_pay11 (iblk m c 0 t) (iblk m c 1 t) (iblk m c 2 t) (k0_pay4 (F := Ideal)) (k0_pay4 (F := Ideal)) (k0_pay5 (F := Ideal)) := by
  rw [outsAt0_A m c t h0 h1]
  dsimp only
  exact Pieces.firstSum (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- After a first tile the weighted sum is the tile step of the reset state. -/
theorem first_acc (t : Fin cfg0.N) (h0 : t.val % 4 = 0) (h1 : ¬t.val % 4 = 3) :
    (outsAt0 m c t.val t.isLt).2.2.2 = k0_pay1 (k0_pay9 (iblk m c 0 t) (iblk m c 1 t) (iblk m c 2 t) (k0_pay4 (F := Ideal)) (k0_pay4 (F := Ideal))) (k0_pay12 (iblk m c 0 t) (iblk m c 1 t) (iblk m c 2 t) (k0_pay4 (F := Ideal))) (iblk m c 3 t) (k0_pay6 (F := Ideal)) := by
  rw [outsAt0_A m c t h0 h1]
  dsimp only
  exact Pieces.firstAcc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-- After a later tile (a middle or the last one) the running maximum is the tile step of what the point before left. -/
theorem later_max (t : Fin cfg0.N) (h0 : ¬t.val % 4 = 0) :
    (outsAt0 m c t.val t.isLt).2.1 = k0_pay2 (k0_pay8 (iblk m c 0 t) (iblk m c 1 t) (iblk m c 2 t) (outsAt0 m c (t.val - 1) (Nat.lt_of_le_of_lt (Nat.sub_le _ _) t.isLt)).2.1) := by
  by_cases h1 : t.val % 4 = 3
  · rw [outsAt0_C m c t h0 h1]
    dsimp only
    exact Pieces.lastMax (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact Pieces.middleMax (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- After a later tile the running sum is the tile step of what the point before left. -/
theorem later_sum (t : Fin cfg0.N) (h0 : ¬t.val % 4 = 0) :
    (outsAt0 m c t.val t.isLt).2.2.1 = k0_pay11 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1 := by
  by_cases h1 : t.val % 4 = 3
  · rw [outsAt0_C m c t h0 h1]
    dsimp only
    exact Pieces.lastSum (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact Pieces.middleSum (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-- After a later tile the weighted sum is the tile step of what the point before left. -/
theorem later_acc (t : Fin cfg0.N) (h0 : ¬t.val % 4 = 0) :
    (outsAt0 m c t.val t.isLt).2.2.2 = k0_pay1 (k0_pay9 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.1) (k0_pay12 (iblk m c 0 t) (iblk m c 1 t) (iblk m c 2 t) (outsAt0 m c (t.val - 1) (Nat.lt_of_le_of_lt (Nat.sub_le _ _) t.isLt)).2.1) (iblk m c 3 t) (outsAt0 m c (t.val - 1) (Nat.lt_of_le_of_lt (Nat.sub_le _ _) t.isLt)).2.2.2 := by
  by_cases h1 : t.val % 4 = 3
  · rw [outsAt0_C m c t h0 h1]
    dsimp only
    exact Pieces.lastAcc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)
  · rw [outsAt0_B m c t h0 h1]
    dsimp only
    exact Pieces.middleAcc (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

/-! ## The invariant, point by point -/

/-- After point `n` the state of every row of the current block satisfies the online-softmax invariant for the keys of
    the tiles `0 … n % 4` of its query row. -/
def Holds (n : ℕ) (hn : n < cfg0.N) : Prop :=
  ∀ (p : Fin 1024) (d : Fin 128),
    Inv ((outsAt0 m c n hn).2.1 (ix2 p (0 : Fin 1))) ((outsAt0 m c n hn).2.2.1 (ix2 p (0 : Fin 1)))
      ((outsAt0 m c n hn).2.2.2 (ix2 p d))
      (W 2048 (rowScores m c (rowAt n p)) (n % 4 + 1)) (A 2048 (rowScores m c (rowAt n p)) (colValues m c d) (n % 4 + 1))

/-- The invariant speaks of the three state values only up to equality. -/
theorem inv_congr {m₁ m₂ l₁ l₂ a₁ a₂ : EReal} {W A : ℝ} (hm : m₁ = m₂) (hl : l₁ = l₂) (ha : a₁ = a₂)
    (h : Inv m₂ l₂ a₂ W A) : Inv m₁ l₁ a₁ W A := by
  subst hm hl ha
  exact h

/-- A first tile: from the reset state (maximum `⊥`, sums zero: nothing seen) one tile step. -/
theorem holds_first (h : RealArrays m c) (t : Fin cfg0.N) (h0 : t.val % 4 = 0) : Holds m c t.val t.isLt := by
  intro p d
  have h1 : ¬t.val % 4 = 3 := by omega
  rw [h0]
  refine inv_congr (congrFun (first_max m c t h0 h1) _) (congrFun (first_sum m c t h0 h1) _)
    (congrFun (first_acc m c t h0 h1) _) ?_
  refine tile_inv (iblk m c 0 t) (iblk m c 1 t) (iblk m c 2 t) (iblk m c 3 t) (k0_pay4 (F := Ideal)) (k0_pay5 (F := Ideal)) (k0_pay6 (F := Ideal)) p d
    (rowScores m c (rowAt t.val p)) (colValues m c d) 0 (fun q => ?_) (fun q => ?_) (rowScores_ne_top m c h _) ?_
  · rw [tile_scores, h0]
  · rw [tile_values m c h, h0]
  · rw [initMax_apply, initSum_apply, initAcc_apply]
    exact inv_zero 2048 _ _

/-- A later tile: from the state the tile before left, one tile step. -/
theorem holds_later (h : RealArrays m c) (t : Fin cfg0.N) (h0 : ¬t.val % 4 = 0)
    (ih : Holds m c (t.val - 1) (Nat.lt_of_le_of_lt (Nat.sub_le _ _) t.isLt)) : Holds m c t.val t.isLt := by
  intro p d
  have e1 : rowAt (t.val - 1) p = rowAt t.val p := Fin.ext (by
    show 1024 * ((t.val - 1) / 4 % 8) + p.val = 1024 * (t.val / 4 % 8) + p.val
    omega)
  have e2 : (t.val - 1) % 4 + 1 = t.val % 4 := by omega
  have hi := ih p d
  rw [e1, e2] at hi
  refine inv_congr (congrFun (later_max m c t h0) _) (congrFun (later_sum m c t h0) _)
    (congrFun (later_acc m c t h0) _) ?_
  exact tile_inv (iblk m c 0 t) (iblk m c 1 t) (iblk m c 2 t) (iblk m c 3 t) _ _ _ p d
    (rowScores m c (rowAt t.val p)) (colValues m c d) (t.val % 4) (fun q => tile_scores m c t p q)
    (fun q => tile_values m c h t q d) (rowScores_ne_top m c h _) hi

/-- The invariant holds after every point: by induction on the point. -/
theorem holds (h : RealArrays m c) : ∀ (n : ℕ) (hn : n < cfg0.N), Holds m c n hn := by
  intro n
  induction n with
  | zero => intro hn; exact holds_first m c h ⟨0, hn⟩ rfl
  | succ n ih =>
    intro hn
    by_cases h0 : (n + 1) % 4 = 0
    · exact holds_first m c h ⟨n + 1, hn⟩ h0
    · exact holds_later m c h ⟨n + 1, hn⟩ h0 (ih (Nat.lt_of_succ_lt hn))

/-! ## The output -/

/-- The scores as a sequence, at a key of the array. -/
theorem rowScores_fin (r k : Fin 8192) : rowScores m c r k.val = score (adjArr m c) (queryCol m c) (keyRow m c) r k := by
  unfold rowScores
  rw [dif_pos k.isLt]

/-- The values as a sequence, at a key of the array. -/
theorem colValues_fin (d : Fin 128) (k : Fin 8192) : colValues m c d k.val = (valueRows m c (ix2 k d)).toReal := by
  unfold colValues
  rw [dif_pos k.isLt]

/-- WHAT A LAST TILE WRITES BACK is its block of the attention output: the quotient of the weighted sum by the sum after
    all four tiles is the weighted mean of the value rows over the whole query row. -/
theorem flushed_eq (h : RealArrays m c) (t : Fin cfg0.N) (hf : (cfg0.win 4).flush t = true) :
    (dats m 0 c).flushed 4 t
      = ((cfg0.win 4).blk t).view.read (Elt Ideal) (attn (adjArr m c) (queryCol m c) (keyRow m c) (valueRows m c)) := by
  have hN : cfg0.N = 32 := N_0
  have ht := t.isLt
  have h1 : t.val % 4 = 3 := (flush0_4 t).mp hf
  have h0 : ¬t.val % 4 = 0 := by omega
  rw [Value.flushed4_C m c t h0 h1, Pieces.lastOut (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
  refine funext fun (j : S1024x128.Idx) => ?_
  obtain ⟨p, d, rfl⟩ : ∃ (p : Fin 1024) (d : Fin 128), j = ix2 p d := ⟨j 0, j 1, eq_ix2 j⟩
  have hrow : 1024 * (t.val / 4) + p.val < 8192 := by have := p.isLt; omega
  refine Eq.trans ?_ (OutputCover.out_block t _ p d hrow).symm
  show k0_pay3 (k0_pay1 (k0_pay9 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.1) (k0_pay12 (iblk m c 0 t) (iblk m c 1 t) (iblk m c 2 t) (outsAt0 m c (t.val - 1) (Nat.lt_of_le_of_lt (Nat.sub_le _ _) t.isLt)).2.1) (iblk m c 3 t) (outsAt0 m c (t.val - 1) (Nat.lt_of_le_of_lt (Nat.sub_le _ _) t.isLt)).2.2.2) (k0_pay11 (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2.1) (ix2 p d) = _
  rw [quotient_apply]
  have e1 : rowAt (t.val - 1) p = rowAt t.val p := Fin.ext (by
    show 1024 * ((t.val - 1) / 4 % 8) + p.val = 1024 * (t.val / 4 % 8) + p.val
    omega)
  have e2 : (t.val - 1) % 4 + 1 = t.val % 4 := by omega
  have hi := holds m c h (t.val - 1) (Nat.lt_of_le_of_lt (Nat.sub_le _ _) t.isLt) p d
  rw [e1, e2] at hi
  have hinv := tile_inv (iblk m c 0 t) (iblk m c 1 t) (iblk m c 2 t) (iblk m c 3 t) _ _ _ p d
    (rowScores m c (rowAt t.val p)) (colValues m c d) (t.val % 4) (fun q => tile_scores m c t p q)
    (fun q => tile_values m c h t q d) (rowScores_ne_top m c h _) hi
  have e3 : t.val % 4 + 1 = 4 := by omega
  rw [e3] at hinv
  refine (out_all 2048 _ _ 4 8192 rfl (by norm_num) hinv (rowScores_real m c h _)).trans ?_
  have er : (⟨1024 * (t.val / 4) + p.val, hrow⟩ : Fin 8192) = rowAt t.val p := Fin.ext (by
    show 1024 * (t.val / 4) + p.val = 1024 * (t.val / 4 % 8) + p.val
    omega)
  rw [er]
  simp only [rowScores_fin, colValues_fin]
  rfl

/-- So the output array ends as the attention of the arrays the windows read: the eight last tiles' blocks tile it. -/
theorem final (h : RealArrays m c) :
    (dats m 0 c).arrAt 4 cfg0.N = attn (adjArr m c) (queryCol m c) (keyRow m c) (valueRows m c) :=
  OutputCover.final_of_flushed m c _ (flushed_eq m c h)

/-- The kernel's run, read: every weakly fair execution ends with the result array at the attention of the arrays
    the region finds, the arguments unchanged — provided the three float arrays the windows read hold real numbers. -/
theorem run (hq : ∀ c i, IsReal (V m c main_v7 i)) (hk : ∀ c i, IsReal (V m c main_v12 i))
    (hv : ∀ c i, IsReal (V m c main_v13 i)) :
    θ_run defs (onTc (τ := τ) (main (F := Ideal))) ⟨m, fun _ => 0, ρ⟩ fun r => ∀ c : Dev nD,
      r.2.mem ((c : Thread nD τ).loc main_v14)
          = attn (V m c main_arg1) (V m c main_v7) (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨(hr c).1.trans (final m c ⟨hq c, hk c, hv c⟩), (hr c).2⟩)
    (Value.run_blocks m ρ)

end Cert.KernelIdeal.AttnValue

end
-- ==== Proof.lean ====
/-
  The certificate of a graph-attention layer: the kernel and its reference compute the same array.

  The layer. From node features it forms `h = features·W + b`, the two projections `a1 = h·a1_w + a1_b` and
  `a2 = h·a2_w + a2_b`, scores a key `k` for a query `r` by `a1 r + a2 k` where the adjacency entry is positive and by a
  large negative fill elsewhere, and returns for each query the softmax of its scores contracted with `h`:

      out (r, d) = (∑ k, e^(score r k) · h (k, d)) / (∑ k, e^(score r k)).

  The kernel computes this with an online softmax over key tiles (a running maximum, the partial sums rescaled when it
  grows); the reference with a two-pass softmax (subtract the row maximum, exponentiate, divide by the row sum) and a
  matrix product. Both are the quotient above, a statement about real numbers: the precondition (every float input is
  finite) makes the inputs, hence `h`, `a1` and `a2`, real, and on real numbers the rescaling factors cancel.

  The assembly: the frames are the generated ones; the idealization rewrote nothing; and for the algebraic claim both
  runs are stated with the same specification term `Cert.Attention.attn` of the same stages of the kernel's arguments —
  the kernel's window arrays are those stages (the host operations before the call are the reference's first thirteen),
  and the reference's memory agrees with the kernel's on the arguments.
-/
import proofs.«157783_j44830868636063_2_alg».proof.Defs
import proofs.«157783_j44830868636063_2_alg».proof.Proof.Gen.Kernel
import proofs.«157783_j44830868636063_2_alg».proof.Proof.Gen.Kernel.Skeleton
import proofs.«157783_j44830868636063_2_alg».proof.Proof.Gen.Kernel.Launch
import proofs.«157783_j44830868636063_2_alg».proof.Proof.Gen.Kernel.Points
import proofs.«157783_j44830868636063_2_alg».proof.Proof.Gen.Kernel.Frame
import proofs.«157783_j44830868636063_2_alg».proof.Proof.Gen.KernelIdeal
import proofs.«157783_j44830868636063_2_alg».proof.Proof.Gen.KernelIdeal.Skeleton
import proofs.«157783_j44830868636063_2_alg».proof.Proof.Gen.KernelIdeal.Launch
import proofs.«157783_j44830868636063_2_alg».proof.Proof.Gen.KernelIdeal.Points
import proofs.«157783_j44830868636063_2_alg».proof.Proof.Gen.KernelIdeal.Frame
import proofs.«157783_j44830868636063_2_alg».proof.Proof.Gen.ReferenceIdeal
import proofs.«157783_j44830868636063_2_alg».proof.Proof.Gen.Pre_finite_inputs
import proofs.«157783_j44830868636063_2_alg».proof.Proof.Gen.KernelIdeal.Value
import proofs.«157783_j44830868636063_2_alg».proof.Proof.Gen.ReferenceIdeal.Run
import proofs.«157783_j44830868636063_2_alg».proof.Proof.Gen.ReferenceIdeal.Read
import proofs.«157783_j44830868636063_2_alg».proof.Proof.Attention
import proofs.«157783_j44830868636063_2_alg».proof.Proof.LibRealSum
import proofs.«157783_j44830868636063_2_alg».proof.Proof.RealInputs
import proofs.«157783_j44830868636063_2_alg».proof.Proof.HostPrefix
import proofs.«157783_j44830868636063_2_alg».proof.Proof.RefAttention
import proofs.«157783_j44830868636063_2_alg».proof.Proof.KernelValue
import Idealize.ShloMosaic.Adequacy
import Idealize.ShloMosaic.Init

noncomputable section

namespace Cert.Proof

open Idealize.ShloMosaic Idealize.ShloMosaic.TcCoe Idealize.SL.Sem Cert.Lib.RealSum

/-! ## The frames -/

/-- The kernel as printed runs and leaves its arguments unchanged: the generated frame. -/
theorem frame_Kernel : Cert.frame_Kernel := fun m ρ _ => Cert.Kernel.Gen.frame m ρ
/-- The same for its idealization. -/
theorem frame_KernelIdeal : Cert.frame_KernelIdeal := fun m ρ _ => Cert.KernelIdeal.Gen.frame m ρ
/-- The reference is a straight line of host operations: its generated run, with the result's conjunct dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

section
open Cert.KernelIdeal Cert.KernelIdeal.Gen

open Cert.ReferenceIdeal.Read Cert.ReferenceIdeal.RealInputs in
/-- Under the precondition the three host projections of the kernel's own arguments are real, on every device. -/
theorem real_projections (m : (ℓ : Loc nD τ sig) → Buf (Elt Ideal) ℓ) (hpre : Cert.Pre_KernelIdeal m) (c : Dev nD) :
    (∀ i, IsReal (val_main_v3 (F := Ideal) (m ((c : Thread nD τ).loc main_arg0)) (m ((c : Thread nD τ).loc main_arg2)) (m ((c : Thread nD τ).loc main_arg3)) i))
    ∧ (∀ i, IsReal (val_main_v7 (F := Ideal) (m ((c : Thread nD τ).loc main_arg0)) (m ((c : Thread nD τ).loc main_arg2)) (m ((c : Thread nD τ).loc main_arg3)) (m ((c : Thread nD τ).loc main_arg4)) (m ((c : Thread nD τ).loc main_arg5)) i))
    ∧ (∀ i, IsReal (val_main_v12 (F := Ideal) (m ((c : Thread nD τ).loc main_arg0)) (m ((c : Thread nD τ).loc main_arg2)) (m ((c : Thread nD τ).loc main_arg3)) (m ((c : Thread nD τ).loc main_arg6)) (m ((c : Thread nD τ).loc main_arg7)) i)) := by
  obtain ⟨h0, h2, h3, h4, h5, h6, h7⟩ := real_of_pre _ _ _ _ _ _ _ _ (hpre c)
  exact ⟨real_v3 _ _ _ h0 h2 h3, real_v7 _ _ _ _ _ h0 h2 h3 h4 h5, real_v12 _ _ _ _ _ h0 h2 h3 h6 h7⟩

open Cert.ReferenceIdeal.Read in
/-- The two idealized programs end with equal results. Under the precondition the projections are real; then the
    kernel's run leaves the attention specification of its arrays, which are the reference's stages of the same
    arguments, and the reference's result is the same specification. -/
theorem algebraic : Cert.algebraic_KernelIdeal_ReferenceIdeal := by
  intro m ρ m' ρ' hpre hagree
  have hreal := real_projections m hpre
  -- the kernel's three window arrays are real: they are the reference's stages of the kernel's arguments
  have hq : ∀ c i, IsReal (V m c main_v7 i) := fun c i => by
    rw [Cert.KernelIdeal.HostPrefix.query_eq m c]; exact (hreal c).2.1 i
  have hk : ∀ c i, IsReal (V m c main_v12 i) := fun c i => by
    rw [Cert.KernelIdeal.HostPrefix.key_eq m c]; exact (hreal c).2.2 i
  have hv : ∀ c i, IsReal (V m c main_v13 i) := fun c i => by
    rw [Cert.KernelIdeal.HostPrefix.value_eq m c]; exact (hreal c).1 i
  refine ⟨fun c => Cert.Attention.attn (m ((c : Thread nD τ).loc main_arg1))
      (val_main_v7 (F := Ideal) (m ((c : Thread nD τ).loc main_arg0)) (m ((c : Thread nD τ).loc main_arg2)) (m ((c : Thread nD τ).loc main_arg3)) (m ((c : Thread nD τ).loc main_arg4)) (m ((c : Thread nD τ).loc main_arg5)))
      (val_main_v12 (F := Ideal) (m ((c : Thread nD τ).loc main_arg0)) (m ((c : Thread nD τ).loc main_arg2)) (m ((c : Thread nD τ).loc main_arg3)) (m ((c : Thread nD τ).loc main_arg6)) (m ((c : Thread nD τ).loc main_arg7)))
      (val_main_v3 (F := Ideal) (m ((c : Thread nD τ).loc main_arg0)) (m ((c : Thread nD τ).loc main_arg2)) (m ((c : Thread nD τ).loc main_arg3))), ?_, ?_⟩
  · -- the kernel: its run's specification, its arrays rewritten to the stages
    refine (θ_run defs _ _).mono (fun r h c => ⟨(h c).1.trans ?_, (h c).2⟩) (Cert.KernelIdeal.AttnValue.run m ρ hq hk hv)
    rw [V_main_arg1 m c, Cert.KernelIdeal.HostPrefix.query_eq m c, Cert.KernelIdeal.HostPrefix.key_eq m c,
      Cert.KernelIdeal.HostPrefix.value_eq m c]
  · -- the reference: its result is the specification, at arguments that agree with the kernel's
    refine (θ_run Cert.ReferenceIdeal.defs _ _).mono (fun r h c => ⟨(h c).1.trans ?_, (h c).2⟩)
      (Cert.ReferenceIdeal.Value.run (F := Ideal) m' ρ')
    rw [val_main_v30_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.ref_is_attn _ _ _ _ _ _ _ _ (hreal c).1 (hreal c).2.1 (hreal c).2.2

end

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
